-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x64 : Shape := ⟨4, ![8, 256, 256, 64]⟩
abbrev S8x65536x2 : Shape := ⟨3, ![8, 65536, 2]⟩
abbrev S_ : Shape := ⟨0, ![]⟩

class Facts : Prop where
  bcast_S_S8x256x256x64 : S_.BroadcastsInDim S8x256x256x64 (![] : Fin 0 → Fin S8x256x256x64.rank)
  reducesTo_S8x256x256x64_S_d0_1_2_3 : S8x256x256x64.ReducesTo [0, 1, 2, 3] S_
  h_S_ : 0 < S_.numel
  bcast_S_S8x65536x2 : S_.BroadcastsInDim S8x65536x2 (![] : Fin 0 → Fin S8x65536x2.rank)
  reducesTo_S8x65536x2_S_d0_1_2 : S8x65536x2.ReducesTo [0, 1, 2] S_

variable [Facts]

def fn {F : FTy → Type} [FloatOps F] (main_arg0 : FVec F S8x256x256x64 .f32) (main_arg1 : FVec F S8x65536x2 .f32) : IVec S_ 1 :=
  let main_v0 : FVec F S8x256x256x64 .f32 := Host.absf main_arg0
  let main_cst : FVec F S_ .f32 := constant S_ .f32 0x7F800000#32
  let main_v1 : FVec F S8x256x256x64 .f32 := broadcastInDim S8x256x256x64 ![] bcast_S_S8x256x256x64 main_cst
  let main_v2 : IVec S8x256x256x64 1 := cmpf .olt main_v0 main_v1
  let main_c : IVec S_ 1 := constantI S_ 1 1#1
  let main_v3 : IVec S_ 1 := (fun x v => Host.reduce IntOp.andi x v reducesTo_S8x256x256x64_S_d0_1_2_3 h_S_) main_v2 main_c
  let main_v4 : FVec F S8x65536x2 .f32 := Host.absf main_arg1
  let main_cst_0 : FVec F S_ .f32 := constant S_ .f32 0x7F800000#32
  let main_v5 : FVec F S8x65536x2 .f32 := broadcastInDim S8x65536x2 ![] bcast_S_S8x65536x2 main_cst_0
  let main_v6 : IVec S8x65536x2 1 := cmpf .olt main_v4 main_v5
  let main_c_1 : IVec S_ 1 := constantI S_ 1 1#1
  let main_v7 : IVec S_ 1 := (fun x v => Host.reduce IntOp.andi x v reducesTo_S8x65536x2_S_d0_1_2 h_S_) main_v6 main_c_1
  let main_v8 : IVec S_ 1 := andi main_v3 main_v7
  main_v8
-- ==== Kernel.lean ====
abbrev S8x256x256x64 : Shape := ⟨4, ![8, 256, 256, 64]⟩
abbrev S8x65536x2 : Shape := ⟨3, ![8, 65536, 2]⟩
abbrev S8x65536x1 : Shape := ⟨3, ![8, 65536, 1]⟩
abbrev S8x65536 : Shape := ⟨2, ![8, 65536]⟩
abbrev S_ : Shape := ⟨0, ![]⟩
abbrev S8x65536x64 : Shape := ⟨3, ![8, 65536, 64]⟩
abbrev S8x65536x2x1 : Shape := ⟨4, ![8, 65536, 2, 1]⟩
abbrev S8x65536x2x64 : Shape := ⟨4, ![8, 65536, 2, 64]⟩
abbrev S524288x128 : Shape := ⟨2, ![524288, 128]⟩
abbrev S524288x2 : Shape := ⟨2, ![524288, 2]⟩
abbrev S524288x64 : Shape := ⟨2, ![524288, 64]⟩
abbrev S4096x128 : Shape := ⟨2, ![4096, 128]⟩
abbrev S4096x2 : Shape := ⟨2, ![4096, 2]⟩
abbrev S4096x64 : Shape := ⟨2, ![4096, 64]⟩
abbrev S4096x1 : Shape := ⟨2, ![4096, 1]⟩

abbrev nBuf : Space → Nat
  | .hbm => 69
  | .vmem => 8
  | .smem => 0
  | _ => 0

abbrev bufTy : (tb : Table) → Fin (tcTables nBuf tb) → BufTy
  | .hbm, ⟨0, _⟩ => ⟨S8x256x256x64, .f32⟩
  | .hbm, ⟨1, _⟩ => ⟨S8x65536x2, .f32⟩
  | .hbm, ⟨2, _⟩ => ⟨S8x65536x1, .f32⟩
  | .hbm, ⟨3, _⟩ => ⟨S8x65536, .f32⟩
  | .hbm, ⟨4, _⟩ => ⟨S8x65536x1, .f32⟩
  | .hbm, ⟨5, _⟩ => ⟨S8x65536, .f32⟩
  | .hbm, ⟨6, _⟩ => ⟨S8x65536, .f32⟩
  | .hbm, ⟨7, _⟩ => ⟨S_, .f32⟩
  | .hbm, ⟨8, _⟩ => ⟨S_, .i32⟩
  | .hbm, ⟨9, _⟩ => ⟨S_, .f32⟩
  | .hbm, ⟨10, _⟩ => ⟨S8x65536, .f32⟩
  | .hbm, ⟨11, _⟩ => ⟨S8x65536, .f32⟩
  | .hbm, ⟨12, _⟩ => ⟨S_, .f32⟩
  | .hbm, ⟨13, _⟩ => ⟨S8x65536, .f32⟩
  | .hbm, ⟨14, _⟩ => ⟨S8x65536, .f32⟩
  | .hbm, ⟨15, _⟩ => ⟨S8x65536, .f32⟩
  | .hbm, ⟨16, _⟩ => ⟨S_, .f32⟩
  | .hbm, ⟨17, _⟩ => ⟨S_, .i32⟩
  | .hbm, ⟨18, _⟩ => ⟨S_, .f32⟩
  | .hbm, ⟨19, _⟩ => ⟨S8x65536, .f32⟩
  | .hbm, ⟨20, _⟩ => ⟨S8x65536, .f32⟩
  | .hbm, ⟨21, _⟩ => ⟨S_, .f32⟩
  | .hbm, ⟨22, _⟩ => ⟨S8x65536, .f32⟩
  | .hbm, ⟨23, _⟩ => ⟨S8x65536, .f32⟩
  | .hbm, ⟨24, _⟩ => ⟨S8x65536, .i32⟩
  | .hbm, ⟨25, _⟩ => ⟨S8x65536, .i32⟩
  | .hbm, ⟨26, _⟩ => ⟨S_, .i32⟩
  | .hbm, ⟨27, _⟩ => ⟨S8x65536, .i32⟩
  | .hbm, ⟨28, _⟩ => ⟨S8x65536, .i32⟩
  | .hbm, ⟨29, _⟩ => ⟨S8x65536, .i32⟩
  | .hbm, ⟨30, _⟩ => ⟨S8x65536x64, .f32⟩
  | .hbm, ⟨31, _⟩ => ⟨S_, .i32⟩
  | .hbm, ⟨32, _⟩ => ⟨S8x65536, .i32⟩
  | .hbm, ⟨33, _⟩ => ⟨S8x65536, .i32⟩
  | .hbm, ⟨34, _⟩ => ⟨S8x65536x1, .i32⟩
  | .hbm, ⟨35, _⟩ => ⟨S8x65536x1, .i32⟩
  | .hbm, ⟨36, _⟩ => ⟨S8x65536x2, .i32⟩
  | .hbm, ⟨37, _⟩ => ⟨S_, .i32⟩
  | .hbm, ⟨38, _⟩ => ⟨S8x65536x2, .i32⟩
  | .hbm, ⟨39, _⟩ => ⟨S8x65536x2, .i1⟩
  | .hbm, ⟨40, _⟩ => ⟨S_, .i32⟩
  | .hbm, ⟨41, _⟩ => ⟨S8x65536x2, .i32⟩
  | .hbm, ⟨42, _⟩ => ⟨S8x65536x2, .i32⟩
  | .hbm, ⟨43, _⟩ => ⟨S8x65536x2, .i32⟩
  | .hbm, ⟨44, _⟩ => ⟨S8x65536x2x1, .i32⟩
  | .hbm, ⟨45, _⟩ => ⟨S8x65536x2x64, .f32⟩
  | .hbm, ⟨46, _⟩ => ⟨S_, .i32⟩
  | .hbm, ⟨47, _⟩ => ⟨S8x65536, .i32⟩
  | .hbm, ⟨48, _⟩ => ⟨S8x65536, .i32⟩
  | .hbm, ⟨49, _⟩ => ⟨S_, .i32⟩
  | .hbm, ⟨50, _⟩ => ⟨S8x65536, .i32⟩
  | .hbm, ⟨51, _⟩ => ⟨S8x65536, .i32⟩
  | .hbm, ⟨52, _⟩ => ⟨S8x65536x1, .i32⟩
  | .hbm, ⟨53, _⟩ => ⟨S8x65536x1, .i32⟩
  | .hbm, ⟨54, _⟩ => ⟨S8x65536x2, .i32⟩
  | .hbm, ⟨55, _⟩ => ⟨S_, .i32⟩
  | .hbm, ⟨56, _⟩ => ⟨S8x65536x2, .i32⟩
  | .hbm, ⟨57, _⟩ => ⟨S8x65536x2, .i1⟩
  | .hbm, ⟨58, _⟩ => ⟨S_, .i32⟩
  | .hbm, ⟨59, _⟩ => ⟨S8x65536x2, .i32⟩
  | .hbm, ⟨60, _⟩ => ⟨S8x65536x2, .i32⟩
  | .hbm, ⟨61, _⟩ => ⟨S8x65536x2, .i32⟩
  | .hbm, ⟨62, _⟩ => ⟨S8x65536x2x1, .i32⟩
  | .hbm, ⟨63, _⟩ => ⟨S8x65536x2x64, .f32⟩
  | .hbm, ⟨64, _⟩ => ⟨S524288x128, .f32⟩
  | .hbm, ⟨65, _⟩ => ⟨S524288x128, .f32⟩
  | .hbm, ⟨66, _⟩ => ⟨S524288x2, .f32⟩
  | .hbm, ⟨67, _⟩ => ⟨S524288x64, .f32⟩
  | .hbm, ⟨68, _⟩ => ⟨S8x65536x64, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x2, .f32⟩
  | .local _ .vmem, ⟨5, _⟩ => ⟨S4096x2, .f32⟩
  | .local _ .vmem, ⟨6, _⟩ => ⟨S4096x64, .f32⟩
  | .local _ .vmem, ⟨7, _⟩ => ⟨S4096x64, .f32⟩
  | _, _ => ⟨S8x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x65536x2_S8x65536x1_0_0_0 : S8x65536x2.Slices ![0, 0, 0] S8x65536x1
  shapeCasts_S8x65536x1_S8x65536 : S8x65536x1.ShapeCasts S8x65536
  slices_S8x65536x2_S8x65536x1_0_0_1 : S8x65536x2.Slices ![0, 0, 1] S8x65536x1
  bcast_S_S8x65536 : S_.BroadcastsInDim S8x65536 (![] : Fin 0 → Fin S8x65536.rank)
  shapeCasts_S8x256x256x64_S8x65536x64 : S8x256x256x64.ShapeCasts S8x65536x64
  bcast_S8x65536_S8x65536x1_0_1 : S8x65536.BroadcastsInDim S8x65536x1 (![0, 1] : Fin 2 → Fin S8x65536x1.rank)
  concatenates_S8x65536x1_S8x65536x1_S8x65536x2_d2 : Shape.Concatenates [S8x65536x1, S8x65536x1] S8x65536x2 2
  bcast_S_S8x65536x2 : S_.BroadcastsInDim S8x65536x2 (![] : Fin 0 → Fin S8x65536x2.rank)
  bcast_S8x65536x2_S8x65536x2x1_0_1_2 : S8x65536x2.BroadcastsInDim S8x65536x2x1 (![0, 1, 2] : Fin 3 → Fin S8x65536x2x1.rank)
  shapeCasts_S8x65536x2x64_S524288x128 : S8x65536x2x64.ShapeCasts S524288x128
  shapeCasts_S8x65536x2_S524288x2 : S8x65536x2.ShapeCasts S524288x2
  inb_S4096x2_S4096x1_0_0 : ∀ a, (![0, 0] : Fin 2 → Nat) a + S4096x1.size a ≤ S4096x2.size a
  h_S4096x1 : 0 < S4096x1.numel
  shapeCasts_S4096x1_S4096x1 : S4096x1.ShapeCasts S4096x1
  inb_S4096x2_S4096x1_0_1 : ∀ a, (![0, 1] : Fin 2 → Nat) a + S4096x1.size a ≤ S4096x2.size a
  inb_S4096x128_S4096x64_0_0 : ∀ a, (![0, 0] : Fin 2 → Nat) a + S4096x64.size a ≤ S4096x128.size a
  h_S4096x64 : 0 < S4096x64.numel
  shapeCasts_S4096x64_S4096x64 : S4096x64.ShapeCasts S4096x64
  inb_S4096x128_S4096x64_0_64 : ∀ a, (![0, 64] : Fin 2 → Nat) a + S4096x64.size a ≤ S4096x128.size a
  broadcasts_S4096x1_S4096x64 : S4096x1.Broadcasts S4096x64
  inb_S4096x64_S4096x64_0_0 : ∀ a, (![0, 0] : Fin 2 → Nat) a + S4096x64.size a ≤ S4096x64.size a
  shapeCasts_S524288x64_S8x65536x64 : S524288x64.ShapeCasts S8x65536x64
  gather_S8x65536x64_S8x65536x2x1_S8x65536x2x64_3_1_0_0_1_3_1164_wf : GatherDims.WF S8x65536x64 S8x65536x2x1 S8x65536x2x64 [3] [1] [0] [1] [0] 3 ![1, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S524288x2.size a
  hwx0_2 : ∀ i : grid0.Coords, EltTy.bits .f32 = 32 ∨ (Rect.block (s := S524288x2) S4096x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S524288x64.size a
  hwx0_3 : ∀ i : grid0.Coords, EltTy.bits .f32 = 32 ∨ (Rect.block (s := S524288x64) S4096x64.size (cc0_transform_3 i) (hinb0_3 i)).WholeWords (EltTy.packing .f32)

variable [Facts₀]

def gather_S8x65536x64_S8x65536x2x1_S8x65536x2x64_3_1_0_0_1_3_1164 : GatherDims S8x65536x64 S8x65536x2x1 S8x65536x2x64 where
  offsetDims := [3]
  collapsedSliceDims := [1]
  operandBatchingDims := [0]
  startIndicesBatchingDims := [0]
  startIndexMap := [1]
  indexVectorDim := 3
  sliceSizes := ![1, 1, 64]
  wf := gather_S8x65536x64_S8x65536x2x1_S8x65536x2x64_3_1_0_0_1_3_1164_wf

abbrev win0_0 : Pipeline.Window sig grid0 :=
  Pipeline.Window.ofSpec (Memref.whole main_v40) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4096x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x256x64 : Shape := ⟨4, ![8, 256, 256, 64]⟩
abbrev S8x65536x2 : Shape := ⟨3, ![8, 65536, 2]⟩
abbrev S8x65536x1 : Shape := ⟨3, ![8, 65536, 1]⟩
abbrev S8x65536 : Shape := ⟨2, ![8, 65536]⟩
abbrev S_ : Shape := ⟨0, ![]⟩
abbrev S8x65536x64 : Shape := ⟨3, ![8, 65536, 64]⟩

abbrev nBuf : Space → Nat
  | .hbm => 142
  | .vmem => 0
  | .smem => 0
  | _ => 0

abbrev hbmTy0_0 (i : Nat) : BufTy := match i % 128 with
  | 0 => ⟨S8x256x256x64, .f32⟩
  | 1 => ⟨S8x65536x2, .f32⟩
  | 2 => ⟨S8x65536x1, .f32⟩
  | 3 => ⟨S8x65536, .f32⟩
  | 4 => ⟨S8x65536x1, .f32⟩
  | 5 => ⟨S8x65536, .f32⟩
  | 6 => ⟨S8x65536, .f32⟩
  | 7 => ⟨S_, .f32⟩
  | 8 => ⟨S_, .i32⟩
  | 9 => ⟨S_, .f32⟩
  | 10 => ⟨S8x65536, .f32⟩
  | 11 => ⟨S8x65536, .f32⟩
  | 12 => ⟨S_, .f32⟩
  | 13 => ⟨S8x65536, .f32⟩
  | 14 => ⟨S8x65536, .f32⟩
  | 15 => ⟨S8x65536, .f32⟩
  | 16 => ⟨S_, .f32⟩
  | 17 => ⟨S_, .i32⟩
  | 18 => ⟨S_, .f32⟩
  | 19 => ⟨S8x65536, .f32⟩
  | 20 => ⟨S8x65536, .f32⟩
  | 21 => ⟨S_, .f32⟩
  | 22 => ⟨S8x65536, .f32⟩
  | 23 => ⟨S8x65536, .f32⟩
  | 24 => ⟨S8x65536, .f32⟩
  | 25 => ⟨S_, .f32⟩
  | 26 => ⟨S_, .f32⟩
  | 27 => ⟨S_, .f32⟩
  | 28 => ⟨S8x65536, .f32⟩
  | 29 => ⟨S8x65536, .f32⟩
  | 30 => ⟨S_, .f32⟩
  | 31 => ⟨S8x65536, .f32⟩
  | 32 => ⟨S8x65536, .f32⟩
  | 33 => ⟨S8x65536x1, .f32⟩
  | 34 => ⟨S8x65536, .f32⟩
  | 35 => ⟨S_, .f32⟩
  | 36 => ⟨S_, .f32⟩
  | 37 => ⟨S_, .f32⟩
  | 38 => ⟨S8x65536, .f32⟩
  | 39 => ⟨S8x65536, .f32⟩
  | 40 => ⟨S_, .f32⟩
  | 41 => ⟨S8x65536, .f32⟩
  | 42 => ⟨S8x65536, .f32⟩
  | 43 => ⟨S8x65536x1, .f32⟩
  | 44 => ⟨S8x65536, .i32⟩
  | 45 => ⟨S8x65536, .i32⟩
  | 46 => ⟨S_, .i32⟩
  | 47 => ⟨S8x65536, .i32⟩
  | 48 => ⟨S8x65536, .i1⟩
  | 49 => ⟨S_, .i32⟩
  | 50 => ⟨S8x65536, .i32⟩
  | 51 => ⟨S8x65536, .i32⟩
  | 52 => ⟨S8x65536, .i32⟩
  | 53 => ⟨S_, .i32⟩
  | 54 => ⟨S8x65536, .i32⟩
  | 55 => ⟨S8x65536, .i1⟩
  | 56 => ⟨S_, .i32⟩
  | 57 => ⟨S8x65536, .i32⟩
  | 58 => ⟨S8x65536, .i32⟩
  | 59 => ⟨S8x65536, .i32⟩
  | 60 => ⟨S8x65536x1, .i32⟩
  | 61 => ⟨S8x65536x1, .i32⟩
  | 62 => ⟨S8x65536x2, .i32⟩
  | 63 => ⟨S8x65536x64, .f32⟩
  | 64 => ⟨S_, .i32⟩
  | 65 => ⟨S8x65536, .i32⟩
  | 66 => ⟨S8x65536, .i32⟩
  | 67 => ⟨S_, .i32⟩
  | 68 => ⟨S8x65536, .i32⟩
  | 69 => ⟨S8x65536, .i1⟩
  | 70 => ⟨S_, .i32⟩
  | 71 => ⟨S8x65536, .i32⟩
  | 72 => ⟨S8x65536, .i32⟩
  | 73 => ⟨S8x65536, .i32⟩
  | 74 => ⟨S_, .i32⟩
  | 75 => ⟨S8x65536, .i32⟩
  | 76 => ⟨S8x65536, .i1⟩
  | 77 => ⟨S_, .i32⟩
  | 78 => ⟨S8x65536, .i32⟩
  | 79 => ⟨S8x65536, .i32⟩
  | 80 => ⟨S8x65536, .i32⟩
  | 81 => ⟨S8x65536x1, .i32⟩
  | 82 => ⟨S8x65536x1, .i32⟩
  | 83 => ⟨S8x65536x2, .i32⟩
  | 84 => ⟨S8x65536x64, .f32⟩
  | 85 => ⟨S_, .i32⟩
  | 86 => ⟨S8x65536, .i32⟩
  | 87 => ⟨S8x65536, .i32⟩
  | 88 => ⟨S_, .i32⟩
  | 89 => ⟨S8x65536, .i32⟩
  | 90 => ⟨S8x65536, .i1⟩
  | 91 => ⟨S_, .i32⟩
  | 92 => ⟨S8x65536, .i32⟩
  | 93 => ⟨S8x65536, .i32⟩
  | 94 => ⟨S8x65536, .i32⟩
  | 95 => ⟨S_, .i32⟩
  | 96 => ⟨S8x65536, .i32⟩
  | 97 => ⟨S8x65536, .i1⟩
  | 98 => ⟨S_, .i32⟩
  | 99 => ⟨S8x65536, .i32⟩
  | 100 => ⟨S8x65536, .i32⟩
  | 101 => ⟨S8x65536, .i32⟩
  | 102 => ⟨S8x65536x1, .i32⟩
  | 103 => ⟨S8x65536x1, .i32⟩
  | 104 => ⟨S8x65536x2, .i32⟩
  | 105 => ⟨S8x65536x64, .f32⟩
  | 106 => ⟨S_, .i32⟩
  | 107 => ⟨S8x65536, .i32⟩
  | 108 => ⟨S8x65536, .i32⟩
  | 109 => ⟨S_, .i32⟩
  | 110 => ⟨S8x65536, .i32⟩
  | 111 => ⟨S8x65536, .i32⟩
  | 112 => ⟨S_, .i32⟩
  | 113 => ⟨S8x65536, .i32⟩
  | 114 => ⟨S8x65536, .i1⟩
  | 115 => ⟨S_, .i32⟩
  | 116 => ⟨S8x65536, .i32⟩
  | 117 => ⟨S8x65536, .i32⟩
  | 118 => ⟨S8x65536, .i32⟩
  | 119 => ⟨S_, .i32⟩
  | 120 => ⟨S8x65536, .i32⟩
  | 121 => ⟨S8x65536, .i1⟩
  | 122 => ⟨S_, .i32⟩
  | 123 => ⟨S8x65536, .i32⟩
  | 124 => ⟨S8x65536, .i32⟩
  | 125 => ⟨S8x65536, .i32⟩
  | 126 => ⟨S8x65536x1, .i32⟩
  | 127 => ⟨S8x65536x1, .i32⟩
  | _ => ⟨S8x256x256x64, .f32⟩

abbrev hbmTy0_1 (i : Nat) : BufTy := match i % 128 with
  | 0 => ⟨S8x65536x2, .i32⟩
  | 1 => ⟨S8x65536x64, .f32⟩
  | 2 => ⟨S8x65536x64, .f32⟩
  | 3 => ⟨S8x65536x64, .f32⟩
  | 4 => ⟨S8x65536x64, .f32⟩
  | 5 => ⟨S8x65536x64, .f32⟩
  | 6 => ⟨S8x65536x64, .f32⟩
  | 7 => ⟨S8x65536x64, .f32⟩
  | 8 => ⟨S8x65536x64, .f32⟩
  | 9 => ⟨S8x65536x64, .f32⟩
  | 10 => ⟨S8x65536x64, .f32⟩
  | 11 => ⟨S8x65536x64, .f32⟩
  | 12 => ⟨S8x65536x64, .f32⟩
  | 13 => ⟨S8x65536x64, .f32⟩
  | _ => ⟨S8x256x256x64, .f32⟩

abbrev hbmTy (i : Nat) : BufTy := match i / 128 with
  | 0 => hbmTy0_0 i
  | 1 => hbmTy0_1 i
  | _ => ⟨S8x256x256x64, .f32⟩

abbrev bufTy : (tb : Table) → Fin (tcTables nBuf tb) → BufTy
  | .hbm, ⟨i, _⟩ => hbmTy i
  | _, _ => ⟨S8x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_cst_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_4 : Ref sig .tc := ⟨.hbm, 35, rfl⟩
abbrev main_cst_5 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_6 : Ref sig .tc := ⟨.hbm, 46, rfl⟩
abbrev main_v16 : Ref sig .tc := ⟨.hbm, 47, rfl⟩
abbrev main_v17 : Ref sig .tc := ⟨.hbm, 48, rfl⟩
abbrev main_c_7 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_8 : Ref sig .tc := ⟨.hbm, 53, rfl⟩
abbrev main_v21 : Ref sig .tc := ⟨.hbm, 54, rfl⟩
abbrev main_v22 : Ref sig .tc := ⟨.hbm, 55, rfl⟩
abbrev main_c_9 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_10 : Ref sig .tc := ⟨.hbm, 64, rfl⟩
abbrev main_v30 : Ref sig .tc := ⟨.hbm, 65, rfl⟩
abbrev main_v31 : Ref sig .tc := ⟨.hbm, 66, rfl⟩
abbrev main_c_11 : Ref sig .tc := ⟨.hbm, 67, rfl⟩
abbrev main_v32 : Ref sig .tc := ⟨.hbm, 68, rfl⟩
abbrev main_v33 : Ref sig .tc := ⟨.hbm, 69, rfl⟩
abbrev main_c_12 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_13 : Ref sig .tc := ⟨.hbm, 74, rfl⟩
abbrev main_v37 : Ref sig .tc := ⟨.hbm, 75, rfl⟩
abbrev main_v38 : Ref sig .tc := ⟨.hbm, 76, rfl⟩
abbrev main_c_14 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_15 : Ref sig .tc := ⟨.hbm, 85, rfl⟩
abbrev main_v46 : Ref sig .tc := ⟨.hbm, 86, rfl⟩
abbrev main_v47 : Ref sig .tc := ⟨.hbm, 87, rfl⟩
abbrev main_c_16 : Ref sig .tc := ⟨.hbm, 88, rfl⟩
abbrev main_v48 : Ref sig .tc := ⟨.hbm, 89, rfl⟩
abbrev main_v49 : Ref sig .tc := ⟨.hbm, 90, rfl⟩
abbrev main_c_17 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_c_18 : Ref sig .tc := ⟨.hbm, 95, rfl⟩
abbrev main_v53 : Ref sig .tc := ⟨.hbm, 96, rfl⟩
abbrev main_v54 : Ref sig .tc := ⟨.hbm, 97, rfl⟩
abbrev main_c_19 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_20 : Ref sig .tc := ⟨.hbm, 106, rfl⟩
abbrev main_v62 : Ref sig .tc := ⟨.hbm, 107, rfl⟩
abbrev main_v63 : Ref sig .tc := ⟨.hbm, 108, rfl⟩
abbrev main_c_21 : Ref sig .tc := ⟨.hbm, 109, rfl⟩
abbrev main_v64 : Ref sig .tc := ⟨.hbm, 110, rfl⟩
abbrev main_v65 : Ref sig .tc := ⟨.hbm, 111, rfl⟩
abbrev main_c_22 : Ref sig .tc := ⟨.hbm, 112, rfl⟩
abbrev main_v66 : Ref sig .tc := ⟨.hbm, 113, rfl⟩
abbrev main_v67 : Ref sig .tc := ⟨.hbm, 114, rfl⟩
abbrev main_c_23 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_24 : Ref sig .tc := ⟨.hbm, 119, rfl⟩
abbrev main_v71 : Ref sig .tc := ⟨.hbm, 120, rfl⟩
abbrev main_v72 : Ref sig .tc := ⟨.hbm, 121, rfl⟩
abbrev main_c_25 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩

abbrev nD : Nat := 1
abbrev τ : Topo := Topo.v7x

variable {F : FTy → Type} [FloatOps F]

class Facts₀ : Prop where
  slices_S8x65536x2_S8x65536x1_0_0_0 : S8x65536x2.Slices ![0, 0, 0] S8x65536x1
  shapeCasts_S8x65536x1_S8x65536 : S8x65536x1.ShapeCasts S8x65536
  slices_S8x65536x2_S8x65536x1_0_0_1 : S8x65536x2.Slices ![0, 0, 1] S8x65536x1
  bcast_S_S8x65536 : S_.BroadcastsInDim S8x65536 (![] : Fin 0 → Fin S8x65536.rank)
  bcast_S8x65536_S8x65536x1_0_1 : S8x65536.BroadcastsInDim S8x65536x1 (![0, 1] : Fin 2 → Fin S8x65536x1.rank)
  concatenates_S8x65536x1_S8x65536x1_S8x65536x2_d2 : Shape.Concatenates [S8x65536x1, S8x65536x1] S8x65536x2 2
  bcast_S8x65536x1_S8x65536x64_0_1_2 : S8x65536x1.BroadcastsInDim S8x65536x64 (![0, 1, 2] : Fin 3 → Fin S8x65536x64.rank)
  gather_S8x256x256x64_S8x65536x2_S8x65536x64_2_12_0_0_12_2_11164_wf : GatherDims.WF S8x256x256x64 S8x65536x2 S8x65536x64 [2] [1, 2] [0] [1, 2] [0] 2 ![1, 1, 1, 64]

variable [Facts₀]

def gather_S8x256x256x64_S8x65536x2_S8x65536x64_2_12_0_0_12_2_11164 : GatherDims S8x256x256x64 S8x65536x2 S8x65536x64 where
  offsetDims := [2]
  collapsedSliceDims := [1, 2]
  operandBatchingDims := [0]
  startIndicesBatchingDims := [0]
  startIndexMap := [1, 2]
  indexVectorDim := 2
  sliceSizes := ![1, 1, 1, 64]
  wf := gather_S8x256x256x64_S8x65536x2_S8x65536x64_2_12_0_0_12_2_11164_wf

class Facts : Prop extends Facts₀ where

variable [Facts]
-- ==== Proof.Spec.lean ====
/-
  Bilinear sampling of a grid `g : [8, 256, 256, 64]` at query points `qp : [8, 65536, 2]` (row coordinate first), as one
  function of the two arrays over the extended reals. A query coordinate `e` is floored and clamped to `[0, 254]`
  (`cellR`), the clamped value converted to a 32-bit word (`cellW`) names the cell's upper-left corner, and the
  fractional part `e - cellR e` clamped to `[0, 1]` (`frac`) weights the four corners: first along the column
  coordinate, then along the row coordinate (`blend`).
-/
import Idealize.ShloMosaic.PureOps.Ideal
import Idealize.ShloMosaic.Lib.ValueIdx

noncomputable section

namespace Cert.Blend

open Idealize.ShloMosaic Idealize.ShloMosaic.ValueIdx

/-- The float words the programs spell: `0.0`, `254.0` and `1.0`. -/
abbrev w0 : EReal := Ideal.ofBits .f32 0x00000000#32
abbrev w254 : EReal := Ideal.ofBits .f32 0x437E0000#32
abbrev w1 : EReal := Ideal.ofBits .f32 0x3F800000#32

/-- The floor of a coordinate clamped to `[0, 254]`: the cell's first corner, as an extended real. -/
def cellR (e : EReal) : EReal := min w254 (max w0 (Ideal.liftRound Int.floor e))

/-- The coordinate's offset inside its cell, clamped to `[0, 1]`. -/
def frac (e : EReal) : EReal := min w1 (max w0 (e - cellR e))

/-- The cell's first corner as a 32-bit word. -/
def cellW (e : EReal) : BitVec 32 := Ideal.fptosi 32 (cellR e)

/-- Linear interpolation of the four corners: along the column coordinate by `ax`, then along the row coordinate by `ay`. -/
def blend (tl tr bl br ax ay : EReal) : EReal :=
  (tl + (tr - tl) * ax) + ((bl + (br - bl) * ax) - (tl + (tr - tl) * ax)) * ay

/-- The grid element at batch `b`, channel `ch`, and the corner `(dy, dx)` of the cell of the point `(y, x)`. -/
def corner (g : (⟨4, ![8, 256, 256, 64]⟩ : Shape).Idx → EReal) (b : Fin 8) (y x : EReal) (dy dx : ℕ) (ch : Fin 64) : EReal :=
  g (ix4 b ⟨min ((cellW y).toNat + dy) 255, by omega⟩ ⟨min ((cellW x).toNat + dx) 255, by omega⟩ ch)

/-- The sampled value at batch `b`, query `q`, channel `ch`. -/
def sample (g : (⟨4, ![8, 256, 256, 64]⟩ : Shape).Idx → EReal) (qp : (⟨3, ![8, 65536, 2]⟩ : Shape).Idx → EReal)
    (b : Fin 8) (q : Fin 65536) (ch : Fin 64) : EReal :=
  blend (corner g b (qp (ix3 b q 0)) (qp (ix3 b q 1)) 0 0 ch) (corner g b (qp (ix3 b q 0)) (qp (ix3 b q 1)) 0 1 ch)
    (corner g b (qp (ix3 b q 0)) (qp (ix3 b q 1)) 1 0 ch) (corner g b (qp (ix3 b q 0)) (qp (ix3 b q 1)) 1 1 ch)
    (frac (qp (ix3 b q 1))) (frac (qp (ix3 b q 0)))

/-- The whole result array. -/
def bilinear (g : (⟨4, ![8, 256, 256, 64]⟩ : Shape).Idx → EReal) (qp : (⟨3, ![8, 65536, 2]⟩ : Shape).Idx → EReal) :
    (⟨3, ![8, 65536, 64]⟩ : Shape).Idx → EReal :=
  fun i => sample g qp (i 0) (i 1) (i 2)

end Cert.Blend

end
-- ==== Proof.KernelBody.lean ====
/-
  One block of the kernel, read at a row and a channel. The body loads the two coordinate columns of its query block, the
  left and right halves (64 lanes each) of the two corner-pair blocks, and stores the bilinear blend: row `r`, channel `ch`
  of the result is `blend` of the four corner values at that row and channel, weighted by the clamped fractional parts of the
  row's two coordinates.
-/
import proofs.«106698_j20942260535437_2_alg».proof.Proof.Gen.KernelIdeal.Frame
import proofs.«106698_j20942260535437_2_alg».proof.Proof.Spec
import Idealize.ShloMosaic.Lib.ValueIdx
import Idealize.ShloMosaic.Lib.Pipeline.Value

set_option maxRecDepth 16384

noncomputable section

namespace Cert.KernelIdeal.Body

open Cert.KernelIdeal Cert.KernelIdeal.Gen Cert.Blend
open Idealize.ShloMosaic Idealize.ShloMosaic.ValueIdx

theorem hz : (![0, 0] : Fin 2 → Nat) = fun _ => 0 := funext fun a => by fin_cases a <;> rfl

/-- A one-column vector broadcast along the lanes reads its row's entry. -/
theorem bcast_col (v : S4096x1.Idx → EReal) (h : S4096x1.Broadcasts S4096x64) (r : Fin 4096) (ch : Fin 64) :
    broadcastTo S4096x64 v h (ix2 r ch) = v (ix2 r (0 : Fin 1)) := by
  refine broadcastTo_apply v h (ix2 r ch) (ix2 r (0 : Fin 1)) fun ax => ?_
  match ax with
  | ⟨0, _⟩ => rfl
  | ⟨1, _⟩ => rfl

/-- The clamped fractional part of the row coordinate, row by row. -/
theorem pay2_apply (v0 : Vec Ideal S4096x1 .f32) (r : Fin 4096) :
    k0_pay2 (F := Ideal) v0 (ix2 r (0 : Fin 1)) = frac (v0 (ix2 r (0 : Fin 1))) := by
  unfold k0_pay2
  rw [shapeCast_self]
  rfl

/-- The clamped fractional part of the column coordinate, row by row. -/
theorem pay3_apply (v2 : Vec Ideal S4096x1 .f32) (r : Fin 4096) :
    k0_pay3 (F := Ideal) v2 (ix2 r (0 : Fin 1)) = frac (v2 (ix2 r (0 : Fin 1))) := by
  unfold k0_pay3
  rw [shapeCast_self]
  rfl

/-- The stored value at row `r`, channel `ch`, from the loaded pieces. -/
theorem pay1_apply (v0 v2 : Vec Ideal S4096x1 .f32) (v24 v26 v28 v30 : Vec Ideal S4096x64 .f32) (r : Fin 4096) (ch : Fin 64) :
    k0_pay1 (F := Ideal) (k0_pay2 v0) (k0_pay4 v28) (k0_pay5 v2 v24 v26) (k0_pay6 v2 v28 v30) (ix2 r ch)
      = blend (v24 (ix2 r ch)) (v26 (ix2 r ch)) (v28 (ix2 r ch)) (v30 (ix2 r ch))
          (frac (v2 (ix2 r (0 : Fin 1)))) (frac (v0 (ix2 r (0 : Fin 1)))) := by
  unfold k0_pay1 k0_pay5 k0_pay6 k0_pay4
  simp only [shapeCast_self]
  show (v24 (ix2 r ch) + (v26 (ix2 r ch) - v24 (ix2 r ch)) * broadcastTo S4096x64 (k0_pay3 v2) _ (ix2 r ch))
      + ((v28 (ix2 r ch) + (v30 (ix2 r ch) - v28 (ix2 r ch)) * broadcastTo S4096x64 (k0_pay3 v2) _ (ix2 r ch))
        - (v24 (ix2 r ch) + (v26 (ix2 r ch) - v24 (ix2 r ch)) * broadcastTo S4096x64 (k0_pay3 v2) _ (ix2 r ch)))
        * broadcastTo S4096x64 (k0_pay2 v0) _ (ix2 r ch) = _
  rw [bcast_col, bcast_col, pay2_apply, pay3_apply]
  rfl

/-- Row `r`, channel `ch` of what the body leaves in the output block, from the three input blocks: the corner pairs hold
    the left corner in lanes `0 … 63` and the right corner in lanes `64 … 127`; the query block holds the row coordinate in
    column 0 and the column coordinate in column 1. -/
theorem out_apply (x0 x1 : Vec Ideal S4096x128 .f32) (x2 : Vec Ideal S4096x2 .f32) (r : Fin 4096) (ch : Fin 64) :
    out0_3 (F := Ideal) x0 x1 x2 (ix2 r ch)
      = blend (x0 (ix2 r ⟨ch.val, by omega⟩)) (x0 (ix2 r ⟨64 + ch.val, by omega⟩))
          (x1 (ix2 r ⟨ch.val, by omega⟩)) (x1 (ix2 r ⟨64 + ch.val, by omega⟩))
          (frac (x2 (ix2 r (1 : Fin 2)))) (frac (x2 (ix2 r (0 : Fin 2)))) := by
  unfold out0_3
  rw [View.canon_unit_zero hz, pay1_apply]
  have e0 : ∀ (x : Vec Ideal S4096x128 .f32), View.ld x r0_2 (ix2 r ch) = x (ix2 r ⟨ch.val, by omega⟩) := fun x =>
    congrArg x (funext fun a => Fin.ext (by
      match a with
      | ⟨0, _⟩ => show 0 + 1 * r.val = r.val; omega
      | ⟨1, _⟩ => show 0 + 1 * ch.val = ch.val; omega))
  have e1 : ∀ (x : Vec Ideal S4096x128 .f32), View.ld x r0_3 (ix2 r ch) = x (ix2 r ⟨64 + ch.val, by omega⟩) := fun x =>
    congrArg x (funext fun a => Fin.ext (by
      match a with
      | ⟨0, _⟩ => show 0 + 1 * r.val = r.val; omega
      | ⟨1, _⟩ => show 64 + 1 * ch.val = 64 + ch.val; omega))
  have e2 : View.ld x2 r0_0 (ix2 r (0 : Fin 1)) = x2 (ix2 r (0 : Fin 2)) :=
    congrArg x2 (funext fun a => Fin.ext (by
      match a with
      | ⟨0, _⟩ => show 0 + 1 * r.val = r.val; omega
      | ⟨1, _⟩ => rfl))
  have e3 : View.ld x2 r0_1 (ix2 r (0 : Fin 1)) = x2 (ix2 r (1 : Fin 2)) :=
    congrArg x2 (funext fun a => Fin.ext (by
      match a with
      | ⟨0, _⟩ => show 0 + 1 * r.val = r.val; omega
      | ⟨1, _⟩ => rfl))
  rw [e0, e1, e0, e1, e2, e3]

end Cert.KernelIdeal.Body

end
-- ==== Proof.KernelRows.lean ====
/-
  The kernel's result array after the run. The grid has 128 points; point `t` stages rows `4096 t … 4096 t + 4095` of the two
  corner-pair arrays `[524288, 128]` and of the query array `[524288, 2]`, and writes back the same rows of the result
  `[524288, 64]`. So row `M`, channel `ch` of the result is the blend of the four corner values in row `M` of the pair
  arrays (lanes `ch` and `64 + ch`) weighted by the clamped fractional parts of row `M`'s two coordinates, and the blocks
  cover every row.
-/
import proofs.«106698_j20942260535437_2_alg».proof.Proof.KernelBody

set_option maxRecDepth 16384

noncomputable section

namespace Cert.KernelIdeal.Rows

open Cert.KernelIdeal Cert.KernelIdeal.Gen Cert.Blend
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result rows as one function of the three staged arrays. -/
def rows (tp bp : S524288x128.Idx → EReal) (qp : S524288x2.Idx → EReal) : S524288x64.Idx → EReal := fun i =>
  blend (tp (ix2 (i 0) ⟨(i 1).val, by have h : (i 1).val < 64 := (i 1).isLt; omega⟩))
    (tp (ix2 (i 0) ⟨64 + (i 1).val, by have h : (i 1).val < 64 := (i 1).isLt; omega⟩))
    (bp (ix2 (i 0) ⟨(i 1).val, by have h : (i 1).val < 64 := (i 1).isLt; omega⟩))
    (bp (ix2 (i 0) ⟨64 + (i 1).val, by have h : (i 1).val < 64 := (i 1).isLt; omega⟩))
    (frac (qp (ix2 (i 0) (1 : Fin 2)))) (frac (qp (ix2 (i 0) (0 : Fin 2))))

/-- The printed index maps over the grid: every window's block row is the point's number, its block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `rows` of the three arrays as the region finds them. -/
theorem flushed_eq (c : Dev nD) (t : Fin cfg0.N) :
    (dats m 0 c).flushed 3 t
      = ((cfg0.win 3).blk t).view.read (Elt Ideal) (rows (V m c main_v40) (V m c main_v41) (V m c main_v42)) := by
  show (cfg0.win 3).cut (grid0.coords t) ((dats m 0 c).after 3 t) = _
  rw [after0_3]
  obtain ⟨e00, e01, e10, e11, e20, e21, e30, e31⟩ := idx_facts t
  have hN : t.val < 128 := by have h := t.isLt; have e : cfg0.N = 128 := N_0; omega
  funext j
  revert j
  show ∀ j : S4096x64.Idx, out0_3 (iblk m c 0 t) (iblk m c 1 t) (iblk m c 2 t) j
      = rows (V m c main_v40) (V m c main_v41) (V m c main_v42) (((cfg0.win 3).blk t).view.emb j)
  intro j
  obtain ⟨r, ch, rfl⟩ : ∃ (r : Fin 4096) (ch : Fin 64), j = ix2 r ch := ⟨j 0, j 1, eq_ix2 j⟩
  refine (Body.out_apply (iblk m c 0 t) (iblk m c 1 t) (iblk m c 2 t) r ch).trans ?_
  have hr : r.val < 4096 := r.isLt
  have hc : ch.val < 64 := ch.isLt
  have hE : ((cfg0.win 3).blk t).view.emb (ix2 r ch) = (ix2 (⟨t.val * 4096 + r.val, by omega⟩ : Fin 524288) ch : S524288x64.Idx) := by
    funext a; apply Fin.ext
    match a with
    | ⟨0, _⟩ => show win0_3.index t (0 : Fin 2) * 4096 + 1 * r.val = t.val * 4096 + r.val; omega
    | ⟨1, _⟩ => show win0_3.index t (1 : Fin 2) * 64 + 1 * ch.val = ch.val; omega
  rw [hE]
  have p0 : ∀ l : Fin 128, iblk m c 0 t (ix2 r l) = V m c main_v40 (ix2 (⟨t.val * 4096 + r.val, by omega⟩ : Fin 524288) l) := fun l => by
    show V m c main_v40 (((cfg0.win 0).blk t).view.emb (ix2 r l)) = _
    refine congrArg _ (funext fun a => Fin.ext ?_)
    have hl : l.val < 128 := l.isLt
    match a with
    | ⟨0, _⟩ => show win0_0.index t (0 : Fin 2) * 4096 + 1 * r.val = t.val * 4096 + r.val; omega
    | ⟨1, _⟩ => show win0_0.index t (1 : Fin 2) * 128 + 1 * l.val = l.val; omega
  have p1 : ∀ l : Fin 128, iblk m c 1 t (ix2 r l) = V m c main_v41 (ix2 (⟨t.val * 4096 + r.val, by omega⟩ : Fin 524288) l) := fun l => by
    show V m c main_v41 (((cfg0.win 1).blk t).view.emb (ix2 r l)) = _
    refine congrArg _ (funext fun a => Fin.ext ?_)
    have hl : l.val < 128 := l.isLt
    match a with
    | ⟨0, _⟩ => show win0_1.index t (0 : Fin 2) * 4096 + 1 * r.val = t.val * 4096 + r.val; omega
    | ⟨1, _⟩ => show win0_1.index t (1 : Fin 2) * 128 + 1 * l.val = l.val; omega
  have p2 : ∀ l : Fin 2, iblk m c 2 t (ix2 r l) = V m c main_v42 (ix2 (⟨t.val * 4096 + r.val, by omega⟩ : Fin 524288) l) := fun l => by
    show V m c main_v42 (((cfg0.win 2).blk t).view.emb (ix2 r l)) = _
    refine congrArg _ (funext fun a => Fin.ext ?_)
    have hl : l.val < 2 := l.isLt
    match a with
    | ⟨0, _⟩ => show win0_2.index t (0 : Fin 2) * 4096 + 1 * r.val = t.val * 4096 + r.val; omega
    | ⟨1, _⟩ => show win0_2.index t (1 : Fin 2) * 2 + 1 * l.val = l.val; omega
  rw [p0, p0, p1, p1, p2, p2]
  rfl

/-- An index of the result is in point `t`'s block iff its row is among the block's rows. -/
theorem mem_blk (t : Fin cfg0.N) (i : S524288x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v43).slice (win0_3.rect t)).set ↔ _
  rw [View.set_slice_whole, Rect.mem_set_unit]
  exact Iff.rfl

/-- The result array after the run is `rows` of the three staged arrays: row `M` is written by point `M / 4096`. -/
theorem final (c : Dev nD) :
    (dats m 0 c).arrAt 3 cfg0.N = rows (V m c main_v40) (V m c main_v41) (V m c main_v42) :=
  (dats m 0 c).arrAt_eq_of_cover 3 _ (fun t _ => flushed_eq m c t) fun i => by
    have h0 : (i 0).val < 524288 := (i 0).isLt
    have h1 : (i 1).val < 64 := (i 1).isLt
    have hN : cfg0.N = 128 := N_0
    refine ⟨⟨(i 0).val / 4096, by rw [hN]; omega⟩, flush0_3 _, ?_⟩
    rw [mem_blk]
    obtain ⟨-, -, -, -, -, -, e30, e31⟩ := idx_facts ⟨(i 0).val / 4096, by rw [hN]; omega⟩
    intro a
    match a with
    | ⟨0, _⟩ =>
      show win0_3.index _ (0 : Fin 2) * 4096 ≤ (i 0).val ∧ (i 0).val < win0_3.index _ (0 : Fin 2) * 4096 + 4096
      rw [e30]; show (i 0).val / 4096 * 4096 ≤ (i 0).val ∧ (i 0).val < (i 0).val / 4096 * 4096 + 4096; omega
    | ⟨1, _⟩ =>
      show win0_3.index _ (1 : Fin 2) * 64 ≤ (i 1).val ∧ (i 1).val < win0_3.index _ (1 : Fin 2) * 64 + 64
      rw [e31]; omega

end Cert.KernelIdeal.Rows

end
-- ==== Proof.KernelRun.lean ====
/-
  The kernel program's run, read: after the one region the host reshapes the result rows `[524288, 64]` to `[8, 65536, 64]`,
  so the result buffer ends holding the reshaped `rows` of the three arrays the region staged, and the arguments are unchanged.
-/
import proofs.«106698_j20942260535437_2_alg».proof.Proof.KernelRows
import Idealize.ShloMosaic.Lib.StableHlo.Run

set_option maxRecDepth 16384

noncomputable section

namespace Cert.KernelIdeal.Rows

open Cert.KernelIdeal Cert.KernelIdeal.Gen Cert.Blend
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The result buffer after the host's last line: the reshaped rows. -/
theorem tail_eq (c : Dev nD) :
    Pipeline.afterTail₀ cfgs (dats m) 0 (V0 m) [hostOps1] c main_v44
      = (shapeCast S8x65536x64 (rows (V m c main_v40) (V m c main_v41) (V m c main_v42)) shapeCasts_S524288x64_S8x65536x64 : S8x65536x64.Idx → EReal) := by
  unfold Pipeline.afterTail₀
  show StableHlo.after hostOps1 _ (Proc.devRef .tc main_v44) = _
  after_results
  rw [(Pipeline.withArrays_arr spec0 launch0.win.arr_inj c _ _ 3).trans (final m c)]
  rfl

/-- Every weakly fair execution of the kernel program ends with the result buffer at the reshaped rows and the arguments
    unchanged. -/
theorem run : θ_run defs (onTc (τ := τ) (main (F := Ideal))) ⟨m, fun _ => 0, ρ⟩ fun r => ∀ c : Dev nD,
      r.2.mem ((c.tc : Thread nD τ).loc main_v44)
        = (shapeCast S8x65536x64 (rows (V m c main_v40) (V m c main_v41) (V m c main_v42)) shapeCasts_S524288x64_S8x65536x64 : S8x65536x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v44 (Pipeline.mem_restRefs_of main_v44 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Rows

end
-- ==== Proof.KernelStages.lean ====
/-
  The host's lines before the region, as stages. From the query array `x1 : [8, 65536, 2]` the two coordinate columns are
  sliced off, floored and clamped to `[0, 254]`, converted to 32-bit words `y`, `x`, and combined into the flat word
  `y * 256 + x` addressing the grid `x0` reshaped to `[8, 65536, 64]`. A base word `w` and its successor `w + 1` are
  joined into a pair of start indices (a negative word would be wrapped by `+ 65536`), the pair of rows is gathered, and
  the `[8, 65536, 2, 64]` result is reshaped to `[524288, 128]`: row `b * 65536 + q` holds the row at `w` in lanes
  `0 … 63` and the row at `w + 1` in lanes `64 … 127`. The top pairs use the flat word itself, the bottom pairs the flat
  word plus `256` (one grid row further). The query array is staged reshaped to `[524288, 2]`.
-/
import proofs.«106698_j20942260535437_2_alg».proof.Proof.Gen.KernelIdeal.Frame
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

/-- Column `0` (the row coordinate) of the query array, as `[8, 65536]`. -/
def yCol (x1 : S8x65536x2.Idx → EReal) : S8x65536.Idx → EReal :=
  shapeCast S8x65536 (extractStridedSlice S8x65536x1 ![0, 0, 0] x1 slices_S8x65536x2_S8x65536x1_0_0_0) shapeCasts_S8x65536x1_S8x65536

/-- Column `1` (the column coordinate) of the query array, as `[8, 65536]`. -/
def xCol (x1 : S8x65536x2.Idx → EReal) : S8x65536.Idx → EReal :=
  shapeCast S8x65536 (extractStridedSlice S8x65536x1 ![0, 0, 1] x1 slices_S8x65536x2_S8x65536x1_0_0_1) shapeCasts_S8x65536x1_S8x65536

/-- The floor clamped to `[0, 254]`, elementwise. -/
def clampFloor (v : S8x65536.Idx → EReal) : S8x65536.Idx → EReal :=
  minimumf (F := Ideal) (broadcastInDim S8x65536 ![] bcast_S_S8x65536 (sitofp (F := Ideal) .f32 (constantI S_ 32 254#32)))
    (maximumf (F := Ideal) (broadcastInDim S8x65536 ![] bcast_S_S8x65536 (id (constant (F := Ideal) S_ .f32 0x00000000#32))) (Host.floor (F := Ideal) v))

/-- The flat word `y * 256 + x` of every query. -/
def flatW (x1 : S8x65536x2.Idx → EReal) : IVec S8x65536 32 :=
  addi (muli (fptosi (F := Ideal) (φ := .f32) 32 (clampFloor (yCol x1))) (broadcastInDim S8x65536 ![] bcast_S_S8x65536 (constantI S_ 32 256#32)))
    (fptosi (F := Ideal) (φ := .f32) 32 (clampFloor (xCol x1)))

/-- The flat word of the cell one grid row further. -/
def flatW' (x1 : S8x65536x2.Idx → EReal) : IVec S8x65536 32 :=
  addi (flatW x1) (broadcastInDim S8x65536 ![] bcast_S_S8x65536 (constantI S_ 32 256#32))

/-- A base word and its successor joined along a new last axis. -/
def joined (w : IVec S8x65536 32) : IVec S8x65536x2 32 :=
  concatenate S8x65536x2 2
    [⟨S8x65536x1, broadcastInDim S8x65536x1 ![0, 1] bcast_S8x65536_S8x65536x1_0_1 w⟩,
     ⟨S8x65536x1, broadcastInDim S8x65536x1 ![0, 1] bcast_S8x65536_S8x65536x1_0_1
        (addi w (broadcastInDim S8x65536 ![] bcast_S_S8x65536 (constantI S_ 32 1#32)))⟩]
    concatenates_S8x65536x1_S8x65536x1_S8x65536x2_d2

/-- The pair of start indices: a negative word wrapped by the axis' length. -/
def startIdx (w : IVec S8x65536 32) : IVec S8x65536x2x1 32 :=
  broadcastInDim S8x65536x2x1 ![0, 1, 2] bcast_S8x65536x2_S8x65536x2x1_0_1_2
    (select (cmpi .slt (joined w) (broadcastInDim S8x65536x2 ![] bcast_S_S8x65536x2 (constantI S_ 32 0#32)))
      (addi (joined w) (broadcastInDim S8x65536x2 ![] bcast_S_S8x65536x2 (constantI S_ 32 65536#32)))
      (joined w))

/-- The gathered pairs of grid rows, one `[128]`-lane row per query. -/
def pairs (x0 : S8x256x256x64.Idx → EReal) (w : IVec S8x65536 32) : S524288x128.Idx → EReal :=
  shapeCast S524288x128
    (Host.gather gather_S8x65536x64_S8x65536x2x1_S8x65536x2x64_3_1_0_0_1_3_1164
      (shapeCast S8x65536x64 x0 shapeCasts_S8x256x256x64_S8x65536x64) (startIdx w))
    shapeCasts_S8x65536x2x64_S524288x128

/-- The query array as rows. -/
def queryRows (x1 : S8x65536x2.Idx → EReal) : S524288x2.Idx → EReal :=
  shapeCast S524288x2 x1 shapeCasts_S8x65536x2_S524288x2

variable (m : (ℓ : Loc nD τ sig) → Buf (Elt Ideal) ℓ)

/-- The region finds the query rows in its third window's array. -/
theorem v42_eq (c : Dev nD) : (V m c main_v42 : S524288x2.Idx → EReal) = queryRows (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 2000000 in
/-- The region finds the top pairs in its first window's array. -/
theorem v40_eq (c : Dev nD) : (V m c main_v40 : S524288x128.Idx → EReal)
    = pairs (m ((c : Thread nD τ).loc main_arg0)) (flatW (m ((c : Thread nD τ).loc main_arg1))) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 2000000 in
/-- The region finds the bottom pairs in its second window's array. -/
theorem v41_eq (c : Dev nD) : (V m c main_v41 : S524288x128.Idx → EReal)
    = pairs (m ((c : Thread nD τ).loc main_arg0)) (flatW' (m ((c : Thread nD τ).loc main_arg1))) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

end Cert.KernelIdeal.Stages

end
-- ==== Proof.Cells.lean ====
/- The query cell of a bilinear sample: the float words of its bounds as extended reals, the
   clamped floor of a coordinate as a natural number at most 254, and the 32-bit word
   arithmetic that addresses the four corners of the cell. -/
import proofs.«106698_j20942260535437_2_alg».proof.Proof.Spec

noncomputable section

namespace Cert.Blend

open Idealize.ShloMosaic

/-- The float word `0.0` denotes zero. -/
theorem w0_eq : w0 = 0 := by
  simp [w0, Ideal.ofBits, Ideal.ieee]

/-- The float word `254.0` denotes the real 254. -/
theorem w254_eq : w254 = ((254 : ℝ) : EReal) := by
  simp [w254, Ideal.ofBits, Ideal.ieee, -EReal.coe_mul]; norm_num

/-- The float word `1.0` denotes one. -/
theorem w1_eq : w1 = 1 := by
  rw [show (1 : EReal) = ((1 : ℝ) : EReal) by norm_cast]
  simp [w1, Ideal.ofBits, Ideal.ieee, -EReal.coe_mul]; norm_num

/-- The integer word 254 converted to a float is the float word `254.0`. -/
theorem w254_sitofp : (((254#32 : BitVec 32).toInt : ℝ) : EReal) = w254 := by
  rw [w254_eq]
  have : (254#32 : BitVec 32).toInt = 254 := by decide
  rw [this]; norm_num

/-- The cell coordinate is a natural number at most 254, as an extended real and as a word:
    the floor of a real clamped to `[0, 254]`, zero at `⊥` and 254 at `⊤`. -/
theorem cell_spec (e : EReal) :
    ∃ n : ℕ, n ≤ 254 ∧ cellR e = ((n : ℝ) : EReal) ∧ cellW e = BitVec.ofNat 32 n := by
  have key : ∀ z : ℤ, 0 ≤ z → z ≤ 254 → cellR e = ((z : ℝ) : EReal) →
      ∃ n : ℕ, n ≤ 254 ∧ cellR e = ((n : ℝ) : EReal) ∧ cellW e = BitVec.ofNat 32 n := by
    intro z h0 h1 hz
    refine ⟨z.toNat, by omega, ?_, ?_⟩
    · rw [hz]; congr 1
      have : ((z.toNat : ℤ) : ℝ) = (z : ℝ) := by rw [Int.toNat_of_nonneg h0]
      exact_mod_cast this.symm
    · rw [cellW, hz, Ideal.fptosi, Ideal.toIntClamped_coe]
      rw [if_pos (by exact_mod_cast h0), Int.floor_intCast]
      have : max (-((2 ^ (32 - 1) : ℕ) : ℤ)) (min (((2 ^ (32 - 1) : ℕ) : ℤ) - 1) z) = (z.toNat : ℤ) := by
        norm_num; omega
      rw [this, BitVec.ofInt_natCast]
  induction e using EReal.rec with
  | bot =>
    refine key 0 (by norm_num) (by norm_num) ?_
    rw [cellR, Ideal.liftRound_bot, w0_eq, w254_eq]; simp
  | top =>
    refine key 254 (by norm_num) (by norm_num) ?_
    rw [cellR, Ideal.liftRound_top, w0_eq, w254_eq]; simp
  | coe r =>
    refine key (min 254 (max 0 ⌊r⌋)) (by omega) (by omega) ?_
    rw [cellR, Ideal.liftRound_coe, w0_eq, w254_eq]
    rw [← EReal.coe_zero, ← EReal.coe_strictMono.monotone.map_max,
      ← EReal.coe_strictMono.monotone.map_min]
    congr 1
    push_cast
    rfl

/-- The cell word is at most 254. -/
theorem cellW_le (e : EReal) : (cellW e).toNat ≤ 254 := by
  obtain ⟨n, hn, -, hw⟩ := cell_spec e
  rw [hw, BitVec.toNat_ofNat]
  omega

/-- The cell coordinate is the cell word read as a real. -/
theorem cellR_eq (e : EReal) : cellR e = (((cellW e).toNat : ℝ) : EReal) := by
  obtain ⟨n, hn, hr, hw⟩ := cell_spec e
  rw [hr, hw, BitVec.toNat_ofNat, Nat.mod_eq_of_lt (by omega)]

/-- On a word `Z` with `0 ≤ Z ≤ N < 2³¹` the wrap of a negative index and the clamp to
    `[0, N]` both leave `Z` alone. -/
theorem wrapClamp (Z c : BitVec 32) (N : ℕ) (h : Z.toNat ≤ N) (hN : N < 2147483648) :
    min (Scalar.select (IntOp.cmpi .slt Z 0#32) (IntOp.addi Z c) Z).toInt.toNat N = Z.toNat := by
  have hz : Z.toInt = (Z.toNat : ℤ) := BitVec.toInt_eq_toNat_of_lt (by omega)
  have hs : Z.slt 0#32 = false := by
    simp [BitVec.slt, hz]
  have hsel : Scalar.select (IntOp.cmpi .slt Z 0#32) (IntOp.addi Z c) Z = Z := by
    simp [Scalar.select, IntOp.cmpi, hs]
  rw [hsel, hz, Int.toNat_natCast]
  omega

/-- The flat word `Y * 256 + X` of a cell has the value `Y * 256 + X`. -/
theorem toNat_flat (Y X : BitVec 32) (hy : Y.toNat ≤ 254) (hx : X.toNat ≤ 254) :
    (IntOp.addi (IntOp.muli Y 256#32) X).toNat = Y.toNat * 256 + X.toNat := by
  simp only [IntOp.addi, IntOp.muli, BitVec.toNat_add, BitVec.toNat_mul, BitVec.toNat_ofNat]
  omega

/-- Adding two words whose sum fits in 32 bits adds their values. -/
theorem toNat_addi (Z c : BitVec 32) (h : Z.toNat + c.toNat < 4294967296) :
    (IntOp.addi Z c).toNat = Z.toNat + c.toNat := by
  simp only [IntOp.addi, BitVec.toNat_add]
  omega

end Cert.Blend

end
-- ==== Proof.Gathers.lean ====
/-
  Two `stablehlo.gather` operations and one two-piece `stablehlo.concatenate`, each READ AT AN INDEX given by
  its coordinates, over literal shapes.

  * `gather_flat_apply`: operand `[8, 65536, 64]`, start indices `[8, 65536, 2, 1]`, result `[8, 65536, 2, 64]`;
    axis 0 of the operand is a batching axis, axis 1 is collapsed and indexed by the start index, axis 2 is the
    offset axis. Result element `(b, q, p, ch)` is the operand at `(b, clamp idx[b, q, p, 0], ch)`.
  * `gather_cell_apply`: operand `[8, 256, 256, 64]`, start indices `[8, 65536, 2]`, result `[8, 65536, 64]`;
    axis 0 is a batching axis, axes 1 and 2 are collapsed and indexed by the two components of the start index,
    axis 3 is the offset axis. Result element `(b, q, ch)` is the operand at
    `(b, clamp idx[b, q, 0], clamp idx[b, q, 1], ch)`.
  * `concat_pair_at0` / `concat_pair_at1`: two pieces `[8, 65536, 1]` joined along the last axis into
    `[8, 65536, 2]`; coordinate 0 on that axis reads the first piece, coordinate 1 the second.

  A start index is read as a signed integer and clamped into `[0, extent − slice size]`.
-/
import Idealize.ShloMosaic.Lib.ValueIdx
import Idealize.ShloMosaic.Lib.Pipeline.Value

noncomputable section

namespace Cert.Blend.Gathers

open Idealize.ShloMosaic Idealize.ShloMosaic.ValueIdx

variable {α : Type}

/-- The dimension numbers of the gather of an operand `[8, 65536, 64]` at start indices `[8, 65536, 2, 1]` into a result
    `[8, 65536, 2, 64]`: operand axis 0 is a batching axis paired with start-indices axis 0, operand axis 1 is collapsed
    and is the one the start index (one component, on start-indices axis 3) addresses, operand axis 2 is kept whole
    (slice size 64) and is read by result axis 3. -/
abbrev flatDims (wf : GatherDims.WF ⟨3, ![8, 65536, 64]⟩ ⟨4, ![8, 65536, 2, 1]⟩ ⟨4, ![8, 65536, 2, 64]⟩
      [3] [1] [0] [1] [0] 3 ![1, 1, 64]) :
    GatherDims ⟨3, ![8, 65536, 64]⟩ ⟨4, ![8, 65536, 2, 1]⟩ ⟨4, ![8, 65536, 2, 64]⟩ where
  offsetDims := [3]
  collapsedSliceDims := [1]
  operandBatchingDims := [0]
  startIndicesBatchingDims := [0]
  startIndexMap := [1]
  indexVectorDim := 3
  sliceSizes := ![1, 1, 64]
  wf := wf

/-- THE GATHER READ AT `(b, q, p, ch)`: the operand at `(b, k, ch)`, where `k` is the start index `idx[b, q, p, 0]` read
    signed and clamped into `[0, 65535]`. -/
theorem gather_flat_apply
    (wf : GatherDims.WF ⟨3, ![8, 65536, 64]⟩ ⟨4, ![8, 65536, 2, 1]⟩ ⟨4, ![8, 65536, 2, 64]⟩
      [3] [1] [0] [1] [0] 3 ![1, 1, 64])
    (x : (⟨3, ![8, 65536, 64]⟩ : Shape).Idx → α) (idx : IVec ⟨4, ![8, 65536, 2, 1]⟩ 32)
    (b : Fin 8) (q : Fin 65536) (p : Fin 2) (ch : Fin 64) :
    Host.gather (flatDims wf) x idx (ix4 b q p ch)
      = x (ix3 b ⟨min (idx (ix4 b q p 0)).toInt.toNat 65535, by omega⟩ ch) := by
  unfold Host.gather
  congr 1
  funext a
  refine Fin.ext ?_
  show (flatDims wf).start (ix4 b q p ch) idx a + (flatDims wf).batchCoord (ix4 b q p ch) a
    + (flatDims wf).offCoord (ix4 b q p ch) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin (⟨3, ![8, 65536, 64]⟩ : Shape).rank) ∈ (flatDims wf).operandBatchingDims from
      List.mem_singleton.mpr rfl)]
    rfl
  | ⟨1, _⟩ =>
    have hb : (⟨1, by decide⟩ : Fin (⟨3, ![8, 65536, 64]⟩ : Shape).rank) ∉ (flatDims wf).operandBatchingDims := by simp
    have hk : (⟨1, by decide⟩ : Fin (⟨3, ![8, 65536, 64]⟩ : Shape).rank) ∉ (flatDims wf).sKept :=
      fun h => ((GatherDims.mem_sKept _ _).mp h).1 (List.mem_singleton.mpr rfl)
    have hm : (⟨1, by decide⟩ : Fin (⟨3, ![8, 65536, 64]⟩ : Shape).rank) ∈ (flatDims wf).startIndexMap :=
      List.mem_singleton.mpr rfl
    rw [GatherDims.batchCoord_eq_zero _ _ _ hb, GatherDims.offCoord_eq_zero _ _ _ hk]
    simp only [Nat.add_zero]
    unfold GatherDims.start
    rw [dif_pos hm]
    have hsi : (flatDims wf).siIdx (ix4 b q p ch)
        ⟨List.idxOf (⟨1, by decide⟩ : Fin (⟨3, ![8, 65536, 64]⟩ : Shape).rank) (flatDims wf).startIndexMap,
          List.idxOf_lt_length_iff.2 hm⟩ = ix4 b q p 0 := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    have hb : (⟨2, by decide⟩ : Fin (⟨3, ![8, 65536, 64]⟩ : Shape).rank) ∉ (flatDims wf).operandBatchingDims := by simp
    have hm : (⟨2, by decide⟩ : Fin (⟨3, ![8, 65536, 64]⟩ : Shape).rank) ∉ (flatDims wf).startIndexMap := by simp
    have hk : (⟨2, by decide⟩ : Fin (⟨3, ![8, 65536, 64]⟩ : Shape).rank) ∈ (flatDims wf).sKept :=
      (GatherDims.mem_sKept _ _).mpr ⟨by simp, hb⟩
    rw [GatherDims.batchCoord_eq_zero _ _ _ hb]
    unfold GatherDims.start
    rw [dif_neg hm]
    simp only [Nat.zero_add, Nat.add_zero]
    unfold GatherDims.offCoord
    rw [dif_pos hk]
    rfl

/-- The dimension numbers of the gather of an operand `[8, 256, 256, 64]` at start indices `[8, 65536, 2]` into a result
    `[8, 65536, 64]`: operand axis 0 is a batching axis paired with start-indices axis 0, operand axes 1 and 2 are
    collapsed and are the ones the start index's two components (on start-indices axis 2) address, operand axis 3 is
    kept whole (slice size 64) and is read by result axis 2. -/
abbrev cellDims (wf : GatherDims.WF ⟨4, ![8, 256, 256, 64]⟩ ⟨3, ![8, 65536, 2]⟩ ⟨3, ![8, 65536, 64]⟩
      [2] [1, 2] [0] [1, 2] [0] 2 ![1, 1, 1, 64]) :
    GatherDims ⟨4, ![8, 256, 256, 64]⟩ ⟨3, ![8, 65536, 2]⟩ ⟨3, ![8, 65536, 64]⟩ where
  offsetDims := [2]
  collapsedSliceDims := [1, 2]
  operandBatchingDims := [0]
  startIndicesBatchingDims := [0]
  startIndexMap := [1, 2]
  indexVectorDim := 2
  sliceSizes := ![1, 1, 1, 64]
  wf := wf

/-- THE GATHER READ AT `(b, q, ch)`: the operand at `(b, k₀, k₁, ch)`, where `k₀` and `k₁` are the start index's components
    `idx[b, q, 0]` and `idx[b, q, 1]`, each read signed and clamped into `[0, 255]`. -/
theorem gather_cell_apply
    (wf : GatherDims.WF ⟨4, ![8, 256, 256, 64]⟩ ⟨3, ![8, 65536, 2]⟩ ⟨3, ![8, 65536, 64]⟩
      [2] [1, 2] [0] [1, 2] [0] 2 ![1, 1, 1, 64])
    (x : (⟨4, ![8, 256, 256, 64]⟩ : Shape).Idx → α) (idx : IVec ⟨3, ![8, 65536, 2]⟩ 32)
    (b : Fin 8) (q : Fin 65536) (ch : Fin 64) :
    Host.gather (cellDims wf) x idx (ix3 b q ch)
      = x (ix4 b ⟨min (idx (ix3 b q 0)).toInt.toNat 255, by omega⟩
            ⟨min (idx (ix3 b q 1)).toInt.toNat 255, by omega⟩ ch) := by
  unfold Host.gather
  congr 1
  funext a
  refine Fin.ext ?_
  show (cellDims wf).start (ix3 b q ch) idx a + (cellDims wf).batchCoord (ix3 b q ch) a
    + (cellDims wf).offCoord (ix3 b q ch) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin (⟨4, ![8, 256, 256, 64]⟩ : Shape).rank) ∈ (cellDims wf).operandBatchingDims from
      List.mem_singleton.mpr rfl)]
    rfl
  | ⟨1, _⟩ =>
    have hb : (⟨1, by decide⟩ : Fin (⟨4, ![8, 256, 256, 64]⟩ : Shape).rank) ∉ (cellDims wf).operandBatchingDims := by simp
    have hc : (⟨1, by decide⟩ : Fin (⟨4, ![8, 256, 256, 64]⟩ : Shape).rank) ∈ (cellDims wf).collapsedSliceDims := by simp
    have hk : (⟨1, by decide⟩ : Fin (⟨4, ![8, 256, 256, 64]⟩ : Shape).rank) ∉ (cellDims wf).sKept :=
      fun h => ((GatherDims.mem_sKept _ _).mp h).1 hc
    have hm : (⟨1, by decide⟩ : Fin (⟨4, ![8, 256, 256, 64]⟩ : Shape).rank) ∈ (cellDims wf).startIndexMap := by simp
    rw [GatherDims.batchCoord_eq_zero _ _ _ hb, GatherDims.offCoord_eq_zero _ _ _ hk]
    simp only [Nat.add_zero]
    unfold GatherDims.start
    rw [dif_pos hm]
    have hsi : (cellDims wf).siIdx (ix3 b q ch)
        ⟨List.idxOf (⟨1, by decide⟩ : Fin (⟨4, ![8, 256, 256, 64]⟩ : Shape).rank) (cellDims wf).startIndexMap,
          List.idxOf_lt_length_iff.2 hm⟩ = ix3 b q 0 := by
      funext c; refine Fin.ext ?_
      match c with
      | ⟨0, _⟩ => rfl
      | ⟨1, _⟩ => rfl
      | ⟨2, _⟩ => rfl
    rw [hsi]
    rfl
  | ⟨2, _⟩ =>
    have hb : (⟨2, by decide⟩ : Fin (⟨4, ![8, 256, 256, 64]⟩ : Shape).rank) ∉ (cellDims wf).operandBatchingDims := by simp
    have hc : (⟨2, by decide⟩ : Fin (⟨4, ![8, 256, 256, 64]⟩ : Shape).rank) ∈ (cellDims wf).collapsedSliceDims := by simp
    have hk : (⟨2, by decide⟩ : Fin (⟨4, ![8, 256, 256, 64]⟩ : Shape).rank) ∉ (cellDims wf).sKept :=
      fun h => ((GatherDims.mem_sKept _ _).mp h).1 hc
    have hm : (⟨2, by decide⟩ : Fin (⟨4, ![8, 256, 256, 64]⟩ : Shape).rank) ∈ (cellDims wf).startIndexMap := by simp
    rw [GatherDims.batchCoord_eq_zero _ _ _ hb, GatherDims.offCoord_eq_zero _ _ _ hk]
    simp only [Nat.add_zero]
    unfold GatherDims.start
    rw [dif_pos hm]
    have hsi : (cellDims wf).siIdx (ix3 b q ch)
        ⟨List.idxOf (⟨2, by decide⟩ : Fin (⟨4, ![8, 256, 256, 64]⟩ : Shape).rank) (cellDims wf).startIndexMap,
          List.idxOf_lt_length_iff.2 hm⟩ = ix3 b q 1 := by
      funext c; refine Fin.ext ?_
      match c with
      | ⟨0, _⟩ => rfl
      | ⟨1, _⟩ => rfl
      | ⟨2, _⟩ => rfl
    rw [hsi]
    rfl
  | ⟨3, _⟩ =>
    have hb : (⟨3, by decide⟩ : Fin (⟨4, ![8, 256, 256, 64]⟩ : Shape).rank) ∉ (cellDims wf).operandBatchingDims := by simp
    have hm : (⟨3, by decide⟩ : Fin (⟨4, ![8, 256, 256, 64]⟩ : Shape).rank) ∉ (cellDims wf).startIndexMap := by simp
    have hk : (⟨3, by decide⟩ : Fin (⟨4, ![8, 256, 256, 64]⟩ : Shape).rank) ∈ (cellDims wf).sKept :=
      (GatherDims.mem_sKept _ _).mpr ⟨by simp, hb⟩
    rw [GatherDims.batchCoord_eq_zero _ _ _ hb]
    unfold GatherDims.start
    rw [dif_neg hm]
    simp only [Nat.zero_add, Nat.add_zero]
    unfold GatherDims.offCoord
    rw [dif_pos hk]
    rfl

/-- The concatenation of two pieces `[8, 65536, 1]` along the last axis, read at `(b, q, 0)`: the first piece at
    `(b, q, 0)`. -/
theorem concat_pair_at0 (h : Shape.Concatenates [⟨3, ![8, 65536, 1]⟩, ⟨3, ![8, 65536, 1]⟩] ⟨3, ![8, 65536, 2]⟩ 2)
    (u v : (⟨3, ![8, 65536, 1]⟩ : Shape).Idx → α) (b : Fin 8) (q : Fin 65536) :
    concatenate ⟨3, ![8, 65536, 2]⟩ 2 [⟨⟨3, ![8, 65536, 1]⟩, u⟩, ⟨⟨3, ![8, 65536, 1]⟩, v⟩] h (ix3 b q 0) = u (ix3 b q 0) :=
  concatenate_pair_apply_left 2 u v h (ix3 b q 0) rfl (ix3 b q 0) (by
    intro c
    match c with
    | ⟨0, _⟩ => rfl
    | ⟨1, _⟩ => rfl
    | ⟨2, _⟩ => rfl)

/-- The same concatenation read at `(b, q, 1)`: the second piece at `(b, q, 0)`. -/
theorem concat_pair_at1 (h : Shape.Concatenates [⟨3, ![8, 65536, 1]⟩, ⟨3, ![8, 65536, 1]⟩] ⟨3, ![8, 65536, 2]⟩ 2)
    (u v : (⟨3, ![8, 65536, 1]⟩ : Shape).Idx → α) (b : Fin 8) (q : Fin 65536) :
    concatenate ⟨3, ![8, 65536, 2]⟩ 2 [⟨⟨3, ![8, 65536, 1]⟩, u⟩, ⟨⟨3, ![8, 65536, 1]⟩, v⟩] h (ix3 b q 1) = v (ix3 b q 0) :=
  concatenate_pair_apply_right 2 u v h (ix3 b q 1) rfl rfl (ix3 b q 0) (by
    intro c hc
    match c, hc with
    | ⟨0, _⟩, _ => rfl
    | ⟨1, _⟩, _ => rfl
    | ⟨2, _⟩, hc => exact absurd rfl hc) rfl

end Cert.Blend.Gathers

end
-- ==== Proof.Layout.lean ====
/- Layout operations of the bilinear sampler read at an index given by its coordinates: the
   reshapes between the grid, its flattened forms and the query list, the two column slices
   of the query array, and the broadcasts of a scalar and along a new unit axis. Each lemma
   names the one element of the operand that the result element is. -/
import Idealize.ShloMosaic.PureOps.Ideal
import Idealize.ShloMosaic.Lib.ValueIdx
import Idealize.ShloMosaic.Lib.Pipeline.Value

noncomputable section

namespace Cert.Blend.Layout

open Idealize.ShloMosaic Idealize.ShloMosaic.ValueIdx

variable {α : Type}

local notation "S_" => (⟨0, ![]⟩ : Shape)
local notation "S8x65536" => (⟨2, ![8, 65536]⟩ : Shape)
local notation "S8x65536x1" => (⟨3, ![8, 65536, 1]⟩ : Shape)
local notation "S8x65536x2" => (⟨3, ![8, 65536, 2]⟩ : Shape)
local notation "S8x65536x64" => (⟨3, ![8, 65536, 64]⟩ : Shape)
local notation "S8x65536x2x1" => (⟨4, ![8, 65536, 2, 1]⟩ : Shape)
local notation "S8x65536x2x64" => (⟨4, ![8, 65536, 2, 64]⟩ : Shape)
local notation "S8x256x256x64" => (⟨4, ![8, 256, 256, 64]⟩ : Shape)
local notation "S524288x2" => (⟨2, ![524288, 2]⟩ : Shape)
local notation "S524288x64" => (⟨2, ![524288, 64]⟩ : Shape)
local notation "S524288x128" => (⟨2, ![524288, 128]⟩ : Shape)

/-! ## Reshapes -/

/-- The grid with its two spatial axes flattened: position `k` of the flat axis is row
    `k / 256`, column `k % 256`. -/
theorem reshape_grid (x : Shape.Idx S8x256x256x64 → α) (h : Shape.ShapeCasts S8x256x256x64 S8x65536x64)
    (b : Fin 8) (k : Fin 65536) (ch : Fin 64) :
    shapeCast S8x65536x64 x h (ix3 b k ch)
      = x (ix4 b (⟨k.val / 256, by omega⟩ : Fin 256) (⟨k.val % 256, by omega⟩ : Fin 256) ch) := by
  refine shapeCast_apply x h (ix3 b k ch) _ ?_
  rewrite [Shape.rowMajor_val_four, Shape.rowMajor_val_three]
  show ((b.val * 256 + k.val / 256) * 256 + k.val % 256) * 64 + ch.val = (b.val * 65536 + k.val) * 64 + ch.val
  omega

/-- The array of corner pairs as a matrix of rows: row `M` is batch `M / 65536`, position
    `M % 65536`; lane `l` is corner `l / 64`, channel `l % 64`. -/
theorem reshape_pairs (x : Shape.Idx S8x65536x2x64 → α) (h : Shape.ShapeCasts S8x65536x2x64 S524288x128)
    (M : Fin 524288) (l : Fin 128) :
    shapeCast S524288x128 x h (ix2 M l)
      = x (ix4 (⟨M.val / 65536, by omega⟩ : Fin 8) (⟨M.val % 65536, by omega⟩ : Fin 65536)
          (⟨l.val / 64, by omega⟩ : Fin 2) (⟨l.val % 64, by omega⟩ : Fin 64)) := by
  refine shapeCast_apply x h (ix2 M l) _ ?_
  rewrite [Shape.rowMajor_val_four, Shape.rowMajor_val_two]
  show ((M.val / 65536 * 65536 + M.val % 65536) * 2 + l.val / 64) * 64 + l.val % 64 = M.val * 128 + l.val
  omega

/-- The query array as a list of points: row `M` is batch `M / 65536`, query `M % 65536`. -/
theorem reshape_query (x : Shape.Idx S8x65536x2 → α) (h : Shape.ShapeCasts S8x65536x2 S524288x2)
    (M : Fin 524288) (p : Fin 2) :
    shapeCast S524288x2 x h (ix2 M p)
      = x (ix3 (⟨M.val / 65536, by omega⟩ : Fin 8) (⟨M.val % 65536, by omega⟩ : Fin 65536) p) := by
  refine shapeCast_apply x h (ix2 M p) _ ?_
  rewrite [Shape.rowMajor_val_three, Shape.rowMajor_val_two]
  show (M.val / 65536 * 65536 + M.val % 65536) * 2 + p.val = M.val * 2 + p.val
  omega

/-- The list of results split back into batches: batch `b`, query `q` is row `b * 65536 + q`. -/
theorem reshape_out (x : Shape.Idx S524288x64 → α) (h : Shape.ShapeCasts S524288x64 S8x65536x64)
    (b : Fin 8) (q : Fin 65536) (ch : Fin 64) :
    shapeCast S8x65536x64 x h (ix3 b q ch)
      = x (ix2 (⟨b.val * 65536 + q.val, by omega⟩ : Fin 524288) ch) := by
  refine shapeCast_apply x h (ix3 b q ch) _ ?_
  rewrite [Shape.rowMajor_val_two, Shape.rowMajor_val_three]
  show (b.val * 65536 + q.val) * 64 + ch.val = (b.val * 65536 + q.val) * 64 + ch.val
  rfl

/-- A trailing unit axis dropped: the element at `(b, q)` is the element at `(b, q, 0)`. -/
theorem reshape_col (x : Shape.Idx S8x65536x1 → α) (h : Shape.ShapeCasts S8x65536x1 S8x65536)
    (b : Fin 8) (q : Fin 65536) :
    shapeCast S8x65536 x h (ix2 b q) = x (ix3 b q 0) := by
  refine shapeCast_apply x h (ix2 b q) _ ?_
  rewrite [Shape.rowMajor_val_three, Shape.rowMajor_val_two]
  show (b.val * 65536 + q.val) * 1 + 0 = b.val * 65536 + q.val
  omega

/-! ## Slices -/

/-- The first column of the query array: the row coordinate of query `(b, q)`. -/
theorem slice_col0 (x : Shape.Idx S8x65536x2 → α) (h : Shape.Slices S8x65536x2 ![0, 0, 0] S8x65536x1)
    (b : Fin 8) (q : Fin 65536) :
    extractStridedSlice S8x65536x1 ![0, 0, 0] x h (ix3 b q 0) = x (ix3 b q 0) := by
  refine extractStridedSlice_apply ![0, 0, 0] x h (ix3 b q 0) (ix3 b q 0) (fun a => match a with
    | ⟨0, _⟩ => by show b.val = 0 + b.val; omega
    | ⟨1, _⟩ => by show q.val = 0 + q.val; omega
    | ⟨2, _⟩ => by show 0 = 0 + 0; rfl)

/-- The second column of the query array: the column coordinate of query `(b, q)`. -/
theorem slice_col1 (x : Shape.Idx S8x65536x2 → α) (h : Shape.Slices S8x65536x2 ![0, 0, 1] S8x65536x1)
    (b : Fin 8) (q : Fin 65536) :
    extractStridedSlice S8x65536x1 ![0, 0, 1] x h (ix3 b q 0) = x (ix3 b q 1) := by
  refine extractStridedSlice_apply ![0, 0, 1] x h (ix3 b q 0) (ix3 b q 1) (fun a => match a with
    | ⟨0, _⟩ => by show b.val = 0 + b.val; omega
    | ⟨1, _⟩ => by show q.val = 0 + q.val; omega
    | ⟨2, _⟩ => by show 1 = 1 + 0; rfl)

/-! ## Broadcasts

The axis maps are stated at the literal types `Fin m → Fin n`. -/

/-- A scalar broadcast over batches and queries reads the scalar. -/
theorem bcast_scalar2 (x : Shape.Idx S_ → α) (h : Shape.BroadcastsInDim S_ S8x65536 (![] : Fin 0 → Fin 2))
    (b : Fin 8) (q : Fin 65536) :
    broadcastInDim S8x65536 (![] : Fin 0 → Fin 2) h x (ix2 b q) = x ix0 :=
  broadcastInDim_apply _ h x (ix2 b q) ix0 (fun a => a.elim0)

/-- A scalar broadcast over batches, queries and the two coordinates reads the scalar. -/
theorem bcast_scalar3 (x : Shape.Idx S_ → α) (h : Shape.BroadcastsInDim S_ S8x65536x2 (![] : Fin 0 → Fin 3))
    (b : Fin 8) (q : Fin 65536) (p : Fin 2) :
    broadcastInDim S8x65536x2 (![] : Fin 0 → Fin 3) h x (ix3 b q p) = x ix0 :=
  broadcastInDim_apply _ h x (ix3 b q p) ix0 (fun a => a.elim0)

/-- A trailing unit axis added: the element at `(b, q, 0)` is the element at `(b, q)`. -/
theorem bcast_unit (x : Shape.Idx S8x65536 → α) (h : Shape.BroadcastsInDim S8x65536 S8x65536x1 (![0, 1] : Fin 2 → Fin 3))
    (b : Fin 8) (q : Fin 65536) :
    broadcastInDim S8x65536x1 (![0, 1] : Fin 2 → Fin 3) h x (ix3 b q 0) = x (ix2 b q) := by
  refine broadcastInDim_apply _ h x (ix3 b q 0) (ix2 b q) (fun a => match a with
    | ⟨0, _⟩ => by show b.val = if (8 : Nat) = 1 then 0 else b.val; rw [if_neg (by decide)]
    | ⟨1, _⟩ => by show q.val = if (65536 : Nat) = 1 then 0 else q.val; rw [if_neg (by decide)])

/-- A trailing unit axis added to the query array: the element at `(b, q, p, 0)` is the
    element at `(b, q, p)`. -/
theorem bcast_unit4 (x : Shape.Idx S8x65536x2 → α) (h : Shape.BroadcastsInDim S8x65536x2 S8x65536x2x1 (![0, 1, 2] : Fin 3 → Fin 4))
    (b : Fin 8) (q : Fin 65536) (p : Fin 2) :
    broadcastInDim S8x65536x2x1 (![0, 1, 2] : Fin 3 → Fin 4) h x (ix4 b q p 0) = x (ix3 b q p) := by
  refine broadcastInDim_apply _ h x (ix4 b q p 0) (ix3 b q p) (fun a => match a with
    | ⟨0, _⟩ => by show b.val = if (8 : Nat) = 1 then 0 else b.val; rw [if_neg (by decide)]
    | ⟨1, _⟩ => by show q.val = if (65536 : Nat) = 1 then 0 else q.val; rw [if_neg (by decide)]
    | ⟨2, _⟩ => by show p.val = if (2 : Nat) = 1 then 0 else p.val; rw [if_neg (by decide)])

end Cert.Blend.Layout

end
-- ==== Proof.KernelPairs.lean ====
/-
  The host stages read at one element. For batch `b`, query `q`, with `y`, `x` the query's two coordinates:
  the coordinate columns read the query array, the clamped floor is the cell coordinate, the flat word is
  `cellW y * 256 + cellW x` (plus `256` one grid row further), and row `b * 65536 + q` of the gathered pairs
  holds in lane `p * 64 + ch` the grid element of channel `ch` at flat position `w + p`, that is at row
  `(w + p) / 256` and column `(w + p) % 256`. With the flat words of the cell these are its four corners.
-/
import proofs.«106698_j20942260535437_2_alg».proof.Proof.KernelStages
import proofs.«106698_j20942260535437_2_alg».proof.Proof.Spec
import proofs.«106698_j20942260535437_2_alg».proof.Proof.Cells
import proofs.«106698_j20942260535437_2_alg».proof.Proof.Gathers
import proofs.«106698_j20942260535437_2_alg».proof.Proof.Layout

set_option maxRecDepth 16384

noncomputable section

namespace Cert.KernelIdeal.Stages

open Cert.KernelIdeal Cert.KernelIdeal.Gen Cert.Blend Cert.Blend.Gathers Cert.Blend.Layout
open Idealize.ShloMosaic Idealize.ShloMosaic.ValueIdx

variable (x0 : S8x256x256x64.Idx → EReal) (x1 : S8x65536x2.Idx → EReal)
variable (b : Fin 8) (q : Fin 65536) (ch : Fin 64) (p : Fin 2)

/-- Two rank-4 indices with equal coordinates are equal. -/
theorem ix4_congr {n0 n1 n2 n3 : ℕ} {a a' : Fin n0} {c c' : Fin n1} {d d' : Fin n2} {e e' : Fin n3}
    (h0 : a.val = a'.val) (h1 : c.val = c'.val) (h2 : d.val = d'.val) (h3 : e.val = e'.val) :
    ix4 a c d e = ix4 a' c' d' e' := by
  rw [Fin.ext h0, Fin.ext h1, Fin.ext h2, Fin.ext h3]

/-- The grid read at the row and column of a flat position depends only on the position. -/
theorem grid_congr (k k' : ℕ) (h : k = k') (h1 : k / 256 < 256) (h2 : k % 256 < 256)
    (h1' : k' / 256 < 256) (h2' : k' % 256 < 256) :
    x0 (ix4 b (⟨k / 256, h1⟩ : Fin 256) (⟨k % 256, h2⟩ : Fin 256) ch)
      = x0 (ix4 b (⟨k' / 256, h1'⟩ : Fin 256) (⟨k' % 256, h2'⟩ : Fin 256) ch) := by
  subst h
  rfl

/-! ## The coordinate columns, the cell coordinate and the flat words -/

/-- The row-coordinate column reads column `0` of the query array. -/
theorem yCol_apply : yCol x1 (ix2 b q) = x1 (ix3 b q 0) := by
  unfold yCol
  rw [reshape_col, slice_col0]

/-- The column-coordinate column reads column `1` of the query array. -/
theorem xCol_apply : xCol x1 (ix2 b q) = x1 (ix3 b q 1) := by
  unfold xCol
  rw [reshape_col, slice_col1]

/-- The clamped floor of an element is its cell coordinate. -/
theorem clampFloor_apply (v : S8x65536.Idx → EReal) : clampFloor v (ix2 b q) = cellR (v (ix2 b q)) := by
  unfold clampFloor
  rw [minimumf_apply, maximumf_apply, bcast_scalar2, bcast_scalar2]
  show min (((254#32 : BitVec 32).toInt : ℝ) : EReal) (max w0 (Ideal.liftRound Int.floor (v (ix2 b q)))) = _
  rw [w254_sitofp]
  rfl

/-- The flat word of a query is its row cell times `256` plus its column cell. -/
theorem flatW_apply : flatW x1 (ix2 b q)
    = IntOp.addi (IntOp.muli (cellW (x1 (ix3 b q 0))) 256#32) (cellW (x1 (ix3 b q 1))) := by
  show IntOp.addi (IntOp.muli (Ideal.fptosi 32 (clampFloor (yCol x1) (ix2 b q)))
      (broadcastInDim S8x65536 ![] bcast_S_S8x65536 (constantI S_ 32 256#32) (ix2 b q)))
    (Ideal.fptosi 32 (clampFloor (xCol x1) (ix2 b q))) = _
  rw [clampFloor_apply, clampFloor_apply, yCol_apply, xCol_apply, bcast_scalar2]
  rfl

/-- The flat word one grid row further is the flat word plus `256`. -/
theorem flatW'_apply : flatW' x1 (ix2 b q) = IntOp.addi (flatW x1 (ix2 b q)) 256#32 := by
  show IntOp.addi (flatW x1 (ix2 b q))
    (broadcastInDim S8x65536 ![] bcast_S_S8x65536 (constantI S_ 32 256#32) (ix2 b q)) = _
  rw [bcast_scalar2]
  rfl

/-- The query rows read the query array. -/
theorem queryRows_apply :
    queryRows x1 (ix2 (⟨b.val * 65536 + q.val, by omega⟩ : Fin 524288) p) = x1 (ix3 b q p) := by
  unfold queryRows
  rw [reshape_query]
  have e : (ix3 (⟨(b.val * 65536 + q.val) / 65536, by omega⟩ : Fin 8)
      (⟨(b.val * 65536 + q.val) % 65536, by omega⟩ : Fin 65536) p) = ix3 b q p := by
    rw [show (⟨(b.val * 65536 + q.val) / 65536, by omega⟩ : Fin 8) = b from Fin.ext (by show (b.val * 65536 + q.val) / 65536 = b.val; omega),
      show (⟨(b.val * 65536 + q.val) % 65536, by omega⟩ : Fin 65536) = q from Fin.ext (by show (b.val * 65536 + q.val) % 65536 = q.val; omega)]
  exact congrArg x1 e

/-! ## The pair of start indices -/

/-- The first joined word is the base word. -/
theorem joined_at0 (w : IVec S8x65536 32) : joined w (ix3 b q 0) = w (ix2 b q) := by
  unfold joined
  rw [concat_pair_at0, bcast_unit]

/-- The second joined word is the base word plus one. -/
theorem joined_at1 (w : IVec S8x65536 32) : joined w (ix3 b q 1) = IntOp.addi (w (ix2 b q)) 1#32 := by
  unfold joined
  rw [concat_pair_at1, bcast_unit]
  show IntOp.addi (w (ix2 b q))
    (broadcastInDim S8x65536 ![] bcast_S_S8x65536 (constantI S_ 32 1#32) (ix2 b q)) = _
  rw [bcast_scalar2]
  rfl

/-- The joined word `p` has the value of the base word plus `p`, when that fits. -/
theorem joined_toNat (w : IVec S8x65536 32) (hw : (w (ix2 b q)).toNat + 1 ≤ 65535) :
    (joined w (ix3 b q p)).toNat = (w (ix2 b q)).toNat + p.val := by
  match p with
  | ⟨0, _⟩ =>
    show (joined w (ix3 b q 0)).toNat = (w (ix2 b q)).toNat
    rw [joined_at0]
  | ⟨1, _⟩ =>
    show (joined w (ix3 b q 1)).toNat = (w (ix2 b q)).toNat + 1
    have h1 : (1#32 : BitVec 32).toNat = 1 := rfl
    rw [joined_at1, toNat_addi _ _ (by rw [h1]; omega), h1]

/-- A start index is the joined word, a negative one wrapped by the length of the flat axis. -/
theorem startIdx_apply (w : IVec S8x65536 32) : startIdx w (ix4 b q p 0)
    = Scalar.select (IntOp.cmpi .slt (joined w (ix3 b q p)) 0#32)
        (IntOp.addi (joined w (ix3 b q p)) 65536#32) (joined w (ix3 b q p)) := by
  unfold startIdx
  rw [bcast_unit4]
  show Scalar.select (IntOp.cmpi .slt (joined w (ix3 b q p))
        (broadcastInDim S8x65536x2 ![] bcast_S_S8x65536x2 (constantI S_ 32 0#32) (ix3 b q p)))
      (IntOp.addi (joined w (ix3 b q p))
        (broadcastInDim S8x65536x2 ![] bcast_S_S8x65536x2 (constantI S_ 32 65536#32) (ix3 b q p)))
      (joined w (ix3 b q p)) = _
  rw [bcast_scalar3, bcast_scalar3]
  rfl

/-- The start index, read signed and clamped to the flat axis, is the base word plus `p`. -/
theorem startIdx_clamp (w : IVec S8x65536 32) (hw : (w (ix2 b q)).toNat + 1 ≤ 65535) :
    min (startIdx w (ix4 b q p 0)).toInt.toNat 65535 = (w (ix2 b q)).toNat + p.val := by
  have hj := joined_toNat b q p w hw
  have hp : p.val < 2 := p.isLt
  rw [startIdx_apply, wrapClamp _ _ 65535 (by omega) (by norm_num), hj]

/-! ## The gathered pairs -/

/-- Row `b * 65536 + q` of the pairs, lane `p * 64 + ch`: the grid element of channel `ch` at flat position `w + p`. -/
theorem pairs_apply (w : IVec S8x65536 32) (hw : (w (ix2 b q)).toNat + 1 ≤ 65535) :
    pairs x0 w (ix2 (⟨b.val * 65536 + q.val, by omega⟩ : Fin 524288) (⟨p.val * 64 + ch.val, by omega⟩ : Fin 128))
      = x0 (ix4 b (⟨((w (ix2 b q)).toNat + p.val) / 256, by omega⟩ : Fin 256)
          (⟨((w (ix2 b q)).toNat + p.val) % 256, by omega⟩ : Fin 256) ch) := by
  unfold pairs
  rw [reshape_pairs]
  have e : ix4 (⟨(b.val * 65536 + q.val) / 65536, by omega⟩ : Fin 8)
      (⟨(b.val * 65536 + q.val) % 65536, by omega⟩ : Fin 65536)
      (⟨(p.val * 64 + ch.val) / 64, by omega⟩ : Fin 2) (⟨(p.val * 64 + ch.val) % 64, by omega⟩ : Fin 64)
      = ix4 b q p ch :=
    ix4_congr (by show (b.val * 65536 + q.val) / 65536 = b.val; omega)
      (by show (b.val * 65536 + q.val) % 65536 = q.val; omega)
      (by show (p.val * 64 + ch.val) / 64 = p.val; omega) (by show (p.val * 64 + ch.val) % 64 = ch.val; omega)
  refine (congrArg _ e).trans ?_
  rw [show gather_S8x65536x64_S8x65536x2x1_S8x65536x2x64_3_1_0_0_1_3_1164
      = flatDims gather_S8x65536x64_S8x65536x2x1_S8x65536x2x64_3_1_0_0_1_3_1164_wf from rfl,
    gather_flat_apply, reshape_grid]
  exact grid_congr x0 b ch _ _ (startIdx_clamp b q p w hw) _ _ _ _

/-! ## The four corners -/

/-- The flat word of a query has the value `cellW y * 256 + cellW x`, at most `254 * 256 + 254`. -/
theorem flatW_toNat : (flatW x1 (ix2 b q)).toNat
    = (cellW (x1 (ix3 b q 0))).toNat * 256 + (cellW (x1 (ix3 b q 1))).toNat := by
  rw [flatW_apply, toNat_flat _ _ (cellW_le _) (cellW_le _)]

/-- The flat word one grid row further has the value `(cellW y + 1) * 256 + cellW x`. -/
theorem flatW'_toNat : (flatW' x1 (ix2 b q)).toNat
    = ((cellW (x1 (ix3 b q 0))).toNat + 1) * 256 + (cellW (x1 (ix3 b q 1))).toNat := by
  have hy := cellW_le (x1 (ix3 b q 0))
  have hx := cellW_le (x1 (ix3 b q 1))
  have h256 : (256#32 : BitVec 32).toNat = 256 := rfl
  have hW := flatW_toNat x1 b q
  rw [flatW'_apply, toNat_addi _ _ (by rw [h256, hW]; omega), h256, hW]
  omega

/-- A pair row whose base word is the flat word of the corner `(dy, 0)` of the query's cell holds, in lane
    `dx * 64 + ch`, the corner `(dy, dx)` at channel `ch`. -/
theorem pairs_corner (w : IVec S8x65536 32) (dy : ℕ) (hdy : dy ≤ 1)
    (hW : (w (ix2 b q)).toNat = ((cellW (x1 (ix3 b q 0))).toNat + dy) * 256 + (cellW (x1 (ix3 b q 1))).toNat) :
    pairs x0 w (ix2 (⟨b.val * 65536 + q.val, by omega⟩ : Fin 524288) (⟨p.val * 64 + ch.val, by omega⟩ : Fin 128))
      = corner x0 b (x1 (ix3 b q 0)) (x1 (ix3 b q 1)) dy p.val ch := by
  have hy := cellW_le (x1 (ix3 b q 0))
  have hx := cellW_le (x1 (ix3 b q 1))
  have hp : p.val < 2 := p.isLt
  rw [pairs_apply x0 b q ch p w (by omega)]
  unfold corner
  exact congrArg x0 (ix4_congr rfl
    (by show ((w (ix2 b q)).toNat + p.val) / 256 = min ((cellW (x1 (ix3 b q 0))).toNat + dy) 255; omega)
    (by show ((w (ix2 b q)).toNat + p.val) % 256 = min ((cellW (x1 (ix3 b q 1))).toNat + p.val) 255; omega)
    rfl)

/-- Lane `ch` is lane `0 * 64 + ch`. -/
theorem lane0 (h : ch.val < 128) (h' : (0 : Fin 2).val * 64 + ch.val < 128) :
    (⟨ch.val, h⟩ : Fin 128) = ⟨(0 : Fin 2).val * 64 + ch.val, h'⟩ :=
  Fin.ext (by show ch.val = 0 * 64 + ch.val; omega)

/-- Lane `64 + ch` is lane `1 * 64 + ch`. -/
theorem lane1 (h : 64 + ch.val < 128) (h' : (1 : Fin 2).val * 64 + ch.val < 128) :
    (⟨64 + ch.val, h⟩ : Fin 128) = ⟨(1 : Fin 2).val * 64 + ch.val, h'⟩ :=
  Fin.ext (by show 64 + ch.val = 1 * 64 + ch.val; omega)

/-- The top pairs, lanes `0 … 63`: the cell's upper-left corner. -/
theorem top_left :
    pairs x0 (flatW x1) (ix2 (⟨b.val * 65536 + q.val, by omega⟩ : Fin 524288) (⟨ch.val, by omega⟩ : Fin 128))
      = corner x0 b (x1 (ix3 b q 0)) (x1 (ix3 b q 1)) 0 0 ch := by
  rw [lane0 ch (by omega) (by show 0 * 64 + ch.val < 128; omega)]
  exact pairs_corner x0 x1 b q ch 0 (flatW x1) 0 (by omega) (by have := flatW_toNat x1 b q; omega)

/-- The top pairs, lanes `64 … 127`: the cell's upper-right corner. -/
theorem top_right :
    pairs x0 (flatW x1) (ix2 (⟨b.val * 65536 + q.val, by omega⟩ : Fin 524288) (⟨64 + ch.val, by omega⟩ : Fin 128))
      = corner x0 b (x1 (ix3 b q 0)) (x1 (ix3 b q 1)) 0 1 ch := by
  rw [lane1 ch (by omega) (by show 1 * 64 + ch.val < 128; omega)]
  exact pairs_corner x0 x1 b q ch 1 (flatW x1) 0 (by omega) (by have := flatW_toNat x1 b q; omega)

/-- The bottom pairs, lanes `0 … 63`: the cell's lower-left corner. -/
theorem bot_left :
    pairs x0 (flatW' x1) (ix2 (⟨b.val * 65536 + q.val, by omega⟩ : Fin 524288) (⟨ch.val, by omega⟩ : Fin 128))
      = corner x0 b (x1 (ix3 b q 0)) (x1 (ix3 b q 1)) 1 0 ch := by
  rw [lane0 ch (by omega) (by show 0 * 64 + ch.val < 128; omega)]
  exact pairs_corner x0 x1 b q ch 0 (flatW' x1) 1 (by omega) (flatW'_toNat x1 b q)

/-- The bottom pairs, lanes `64 … 127`: the cell's lower-right corner. -/
theorem bot_right :
    pairs x0 (flatW' x1) (ix2 (⟨b.val * 65536 + q.val, by omega⟩ : Fin 524288) (⟨64 + ch.val, by omega⟩ : Fin 128))
      = corner x0 b (x1 (ix3 b q 0)) (x1 (ix3 b q 1)) 1 1 ch := by
  rw [lane1 ch (by omega) (by show 1 * 64 + ch.val < 128; omega)]
  exact pairs_corner x0 x1 b q ch 1 (flatW' x1) 1 (by omega) (flatW'_toNat x1 b q)

end Cert.KernelIdeal.Stages

end
-- ==== Proof.KernelValue.lean ====
/-
  The kernel program's result is the bilinear sampling of its arguments: row `b * 65536 + q` of the result rows is query `q`
  of batch `b`; its four corner values are the left and right halves of the top and bottom gathered pairs, its two weights the
  clamped fractional parts of the query's coordinates.
-/
import proofs.«106698_j20942260535437_2_alg».proof.Proof.KernelRun
import proofs.«106698_j20942260535437_2_alg».proof.Proof.KernelPairs

set_option maxRecDepth 16384

noncomputable section

namespace Cert.KernelIdeal.Rows

open Cert.KernelIdeal Cert.KernelIdeal.Gen Cert.KernelIdeal.Stages Cert.Blend Cert.Blend.Layout
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reshaped result rows are the sampled array. -/
theorem result_eq (c : Dev nD) :
    (shapeCast S8x65536x64 (rows (V m c main_v40) (V m c main_v41) (V m c main_v42)) shapeCasts_S524288x64_S8x65536x64 : S8x65536x64.Idx → EReal)
      = bilinear (m ((c : Thread nD τ).loc main_arg0)) (m ((c : Thread nD τ).loc main_arg1)) := by
  rw [v40_eq, v41_eq, v42_eq]
  funext i
  obtain ⟨b, q, ch, rfl⟩ : ∃ (b : Fin 8) (q : Fin 65536) (ch : Fin 64), i = ix3 b q ch := ⟨i 0, i 1, i 2, eq_ix3 i⟩
  rw [reshape_out]
  have hq : q.val < 65536 := q.isLt
  have hb : b.val < 8 := b.isLt
  have hc : ch.val < 64 := ch.isLt
  show blend
      (pairs (m ((c : Thread nD τ).loc main_arg0)) (flatW (m ((c : Thread nD τ).loc main_arg1)))
        (ix2 (⟨b.val * 65536 + q.val, by omega⟩ : Fin 524288) (⟨ch.val, by omega⟩ : Fin 128)))
      (pairs (m ((c : Thread nD τ).loc main_arg0)) (flatW (m ((c : Thread nD τ).loc main_arg1)))
        (ix2 (⟨b.val * 65536 + q.val, by omega⟩ : Fin 524288) (⟨64 + ch.val, by omega⟩ : Fin 128)))
      (pairs (m ((c : Thread nD τ).loc main_arg0)) (flatW' (m ((c : Thread nD τ).loc main_arg1)))
        (ix2 (⟨b.val * 65536 + q.val, by omega⟩ : Fin 524288) (⟨ch.val, by omega⟩ : Fin 128)))
      (pairs (m ((c : Thread nD τ).loc main_arg0)) (flatW' (m ((c : Thread nD τ).loc main_arg1)))
        (ix2 (⟨b.val * 65536 + q.val, by omega⟩ : Fin 524288) (⟨64 + ch.val, by omega⟩ : Fin 128)))
      (frac (queryRows (m ((c : Thread nD τ).loc main_arg1)) (ix2 (⟨b.val * 65536 + q.val, by omega⟩ : Fin 524288) (1 : Fin 2))))
      (frac (queryRows (m ((c : Thread nD τ).loc main_arg1)) (ix2 (⟨b.val * 65536 + q.val, by omega⟩ : Fin 524288) (0 : Fin 2))))
    = sample (m ((c : Thread nD τ).loc main_arg0)) (m ((c : Thread nD τ).loc main_arg1)) b q ch
  rw [top_left, top_right, bot_left, bot_right, queryRows_apply, queryRows_apply]
  rfl

/-- Every weakly fair execution of the kernel program ends with the sampled array in the result buffer and the arguments
    unchanged. -/
theorem run_bilinear : θ_run defs (onTc (τ := τ) (main (F := Ideal))) ⟨m, fun _ => 0, ρ⟩ fun r => ∀ c : Dev nD,
      r.2.mem ((c.tc : Thread nD τ).loc main_v44)
        = bilinear (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq m c), (h c).2⟩) (run m ρ)

end Cert.KernelIdeal.Rows

end
-- ==== Proof.RefValue.lean ====
/-
  The reference program of the bilinear sampling, read one element at a time at the ideal instance (floats the extended
  reals): its result array is `Cert.Blend.bilinear` of its two arguments.

  For a query `(b, q)` with row coordinate `y = qp[b, q, 0]` and column coordinate `x = qp[b, q, 1]` the program floors and
  clamps each coordinate to `[0, 254]` (`cellR`), takes the clamped offset inside the cell as the weight (`frac`), converts
  the clamped floor to a 32-bit word (`cellW`), and gathers the grid at the four corners `(cellW y + dy, cellW x + dx)`,
  `dy, dx ∈ {0, 1}`. Each index word is first wrapped (`Z + 256` when negative) and then clamped into `[0, 255]` by the
  gather; since a cell word is at most 254, neither changes it. The four corners are interpolated along the column
  coordinate and then along the row coordinate (`blend`).
-/
import proofs.«106698_j20942260535437_2_alg».proof.Proof.Gen.ReferenceIdeal.Read
import proofs.«106698_j20942260535437_2_alg».proof.Proof.Spec
import proofs.«106698_j20942260535437_2_alg».proof.Proof.Cells
import proofs.«106698_j20942260535437_2_alg».proof.Proof.Gathers

noncomputable section

namespace Cert.ReferenceIdeal.RefValue

open Cert.ReferenceIdeal Cert.ReferenceIdeal.Gen Cert.ReferenceIdeal.Read Cert.Blend Cert.Blend.Gathers
open Idealize.ShloMosaic Idealize.ShloMosaic.ValueIdx

/-! ## The query coordinates, their cells and weights -/

/-- The flattened query index `(b, q)` read back through the reshape and the slice of component 0 is `(b, q, 0)`. -/
theorem idx_v0_v1 (b : Fin 8) (q : Fin 65536) : idx_main_v0 (idx_main_v1 (ix2 b q)) = ix3 b q 0 := by
  funext a
  match a with
  | ⟨0, _⟩ => exact Fin.ext (by show (b.val * 65536 + q.val) / 65536 = b.val; omega)
  | ⟨1, _⟩ => exact Fin.ext (by show (b.val * 65536 + q.val) / 1 % 65536 = q.val; omega)
  | ⟨2, _⟩ => rfl

/-- The same through the slice of component 1: `(b, q, 1)`. -/
theorem idx_v2_v3 (b : Fin 8) (q : Fin 65536) : idx_main_v2 (idx_main_v3 (ix2 b q)) = ix3 b q 1 := by
  funext a
  match a with
  | ⟨0, _⟩ => exact Fin.ext (by show (b.val * 65536 + q.val) / 65536 = b.val; omega)
  | ⟨1, _⟩ => exact Fin.ext (by show (b.val * 65536 + q.val) / 1 % 65536 = q.val; omega)
  | ⟨2, _⟩ => rfl

/-- The row coordinate of query `(b, q)`. -/
theorem v1_at (x1 : S8x65536x2.Idx → EReal) (b : Fin 8) (q : Fin 65536) :
    val_main_v1 (F := Ideal) x1 (ix2 b q) = x1 (ix3 b q 0) := by
  rw [val_main_v1_apply, val_main_v0_apply, idx_v0_v1]

/-- The column coordinate of query `(b, q)`. -/
theorem v3_at (x1 : S8x65536x2.Idx → EReal) (b : Fin 8) (q : Fin 65536) :
    val_main_v3 (F := Ideal) x1 (ix2 b q) = x1 (ix3 b q 1) := by
  rw [val_main_v3_apply, val_main_v2_apply, idx_v2_v3]

/-- The row coordinate floored and clamped to `[0, 254]`: the integer bound 254 converted to a float is the float word `254.0`. -/
theorem v5_at (x1 : S8x65536x2.Idx → EReal) (b : Fin 8) (q : Fin 65536) :
    val_main_v5 (F := Ideal) x1 (ix2 b q) = cellR (x1 (ix3 b q 0)) := by
  rw [val_main_v5_apply, val_main_call0_v4_apply, val_main_call0_v3_apply, val_main_c_apply,
    val_main_call0_v2_apply, val_main_call0_v1_apply, val_main_call0_v0_apply, val_main_cst_apply,
    val_main_v4_apply, v1_at]
  show min ((((254#32 : BitVec 32).toInt : ℝ) : EReal)) (max w0 (Ideal.liftRound Int.floor (x1 (ix3 b q 0)))) = _
  rw [w254_sitofp]
  rfl

/-- The column coordinate floored and clamped to `[0, 254]`. -/
theorem v7_at (x1 : S8x65536x2.Idx → EReal) (b : Fin 8) (q : Fin 65536) :
    val_main_v7 (F := Ideal) x1 (ix2 b q) = cellR (x1 (ix3 b q 1)) := by
  rw [val_main_v7_apply, val_main_call1_v4_apply, val_main_call1_v3_apply, val_main_c_1_apply,
    val_main_call1_v2_apply, val_main_call1_v1_apply, val_main_call1_v0_apply, val_main_cst_0_apply,
    val_main_v6_apply, v3_at]
  show min ((((254#32 : BitVec 32).toInt : ℝ) : EReal)) (max w0 (Ideal.liftRound Int.floor (x1 (ix3 b q 1)))) = _
  rw [w254_sitofp]
  rfl

/-- The row weight: the row coordinate's offset inside its cell, clamped to `[0, 1]`. -/
theorem v9_at (x1 : S8x65536x2.Idx → EReal) (b : Fin 8) (q : Fin 65536) :
    val_main_v9 (F := Ideal) x1 (ix2 b q) = frac (x1 (ix3 b q 0)) := by
  rw [val_main_v9_apply, val_main_call2_v4_apply, val_main_call2_v3_apply, val_main_cst_3_apply,
    val_main_call2_v2_apply, val_main_call2_v1_apply, val_main_call2_v0_apply, val_main_cst_2_apply,
    val_main_v8_apply, v1_at, v5_at]
  rfl

/-- The column weight: the column coordinate's offset inside its cell, clamped to `[0, 1]`. -/
theorem v12_at (x1 : S8x65536x2.Idx → EReal) (b : Fin 8) (q : Fin 65536) :
    val_main_v12 (F := Ideal) x1 (ix2 b q) = frac (x1 (ix3 b q 1)) := by
  rw [val_main_v12_apply, val_main_call3_v4_apply, val_main_call3_v3_apply, val_main_cst_5_apply,
    val_main_call3_v2_apply, val_main_call3_v1_apply, val_main_call3_v0_apply, val_main_cst_4_apply,
    val_main_v11_apply, v3_at, v7_at]
  rfl

/-- The row cell word. -/
theorem v14_at (x1 : S8x65536x2.Idx → EReal) (b : Fin 8) (q : Fin 65536) :
    val_main_v14 (F := Ideal) x1 (ix2 b q) = cellW (x1 (ix3 b q 0)) := by
  rw [val_main_v14_apply, v5_at]
  rfl

/-- The column cell word. -/
theorem v15_at (x1 : S8x65536x2.Idx → EReal) (b : Fin 8) (q : Fin 65536) :
    val_main_v15 (F := Ideal) x1 (ix2 b q) = cellW (x1 (ix3 b q 1)) := by
  rw [val_main_v15_apply, v7_at]
  rfl

/-! ## The index words of the four corners, wrapped -/

/-- The wrap of a possibly negative index word: `Z + 256` when `Z` is negative as a signed integer, else `Z`. -/
abbrev wrapW (Z : BitVec 32) : BitVec 32 :=
  Scalar.select (IntOp.cmpi .slt Z 0#32) (IntOp.addi Z 256#32) Z

/-- The wrapped row word of the corner `(0, 0)`. -/
theorem v20_at (x1 : S8x65536x2.Idx → EReal) (b : Fin 8) (q : Fin 65536) :
    val_main_v20 (F := Ideal) x1 (ix2 b q) = wrapW (cellW (x1 (ix3 b q 0))) := by
  rw [val_main_v20_apply, val_main_v17_apply, val_main_v19_apply, v14_at,
    val_main_v16_apply, val_main_c_6_apply, val_main_v18_apply, val_main_c_7_apply]

/-- The wrapped column word of the corner `(0, 0)`. -/
theorem v25_at (x1 : S8x65536x2.Idx → EReal) (b : Fin 8) (q : Fin 65536) :
    val_main_v25 (F := Ideal) x1 (ix2 b q) = wrapW (cellW (x1 (ix3 b q 1))) := by
  rw [val_main_v25_apply, val_main_v22_apply, val_main_v24_apply, v15_at,
    val_main_v21_apply, val_main_c_8_apply, val_main_v23_apply, val_main_c_9_apply]

/-- The wrapped row word of the corner `(0, 1)`. -/
theorem v36_at (x1 : S8x65536x2.Idx → EReal) (b : Fin 8) (q : Fin 65536) :
    val_main_v36 (F := Ideal) x1 (ix2 b q) = wrapW (cellW (x1 (ix3 b q 0))) := by
  rw [val_main_v36_apply, val_main_v33_apply, val_main_v35_apply, v14_at,
    val_main_v32_apply, val_main_c_11_apply, val_main_v34_apply, val_main_c_12_apply]

/-- The column cell word plus one. -/
theorem v31_at (x1 : S8x65536x2.Idx → EReal) (b : Fin 8) (q : Fin 65536) :
    val_main_v31 (F := Ideal) x1 (ix2 b q) = IntOp.addi (cellW (x1 (ix3 b q 1))) 1#32 := by
  rw [val_main_v31_apply, v15_at, val_main_v30_apply, val_main_c_10_apply]

/-- The wrapped column word of the corner `(0, 1)`. -/
theorem v41_at (x1 : S8x65536x2.Idx → EReal) (b : Fin 8) (q : Fin 65536) :
    val_main_v41 (F := Ideal) x1 (ix2 b q) = wrapW (IntOp.addi (cellW (x1 (ix3 b q 1))) 1#32) := by
  rw [val_main_v41_apply, val_main_v38_apply, val_main_v40_apply, v31_at,
    val_main_v37_apply, val_main_c_13_apply, val_main_v39_apply, val_main_c_14_apply]

/-- The row cell word plus one. -/
theorem v47_at (x1 : S8x65536x2.Idx → EReal) (b : Fin 8) (q : Fin 65536) :
    val_main_v47 (F := Ideal) x1 (ix2 b q) = IntOp.addi (cellW (x1 (ix3 b q 0))) 1#32 := by
  rw [val_main_v47_apply, v14_at, val_main_v46_apply, val_main_c_15_apply]

/-- The wrapped row word of the corner `(1, 0)`. -/
theorem v52_at (x1 : S8x65536x2.Idx → EReal) (b : Fin 8) (q : Fin 65536) :
    val_main_v52 (F := Ideal) x1 (ix2 b q) = wrapW (IntOp.addi (cellW (x1 (ix3 b q 0))) 1#32) := by
  rw [val_main_v52_apply, val_main_v49_apply, val_main_v51_apply, v47_at,
    val_main_v48_apply, val_main_c_16_apply, val_main_v50_apply, val_main_c_17_apply]

/-- The wrapped column word of the corner `(1, 0)`. -/
theorem v57_at (x1 : S8x65536x2.Idx → EReal) (b : Fin 8) (q : Fin 65536) :
    val_main_v57 (F := Ideal) x1 (ix2 b q) = wrapW (cellW (x1 (ix3 b q 1))) := by
  rw [val_main_v57_apply, val_main_v54_apply, val_main_v56_apply, v15_at,
    val_main_v53_apply, val_main_c_18_apply, val_main_v55_apply, val_main_c_19_apply]

/-- The row cell word plus one. -/
theorem v63_at (x1 : S8x65536x2.Idx → EReal) (b : Fin 8) (q : Fin 65536) :
    val_main_v63 (F := Ideal) x1 (ix2 b q) = IntOp.addi (cellW (x1 (ix3 b q 0))) 1#32 := by
  rw [val_main_v63_apply, v14_at, val_main_v62_apply, val_main_c_20_apply]

/-- The wrapped row word of the corner `(1, 1)`. -/
theorem v70_at (x1 : S8x65536x2.Idx → EReal) (b : Fin 8) (q : Fin 65536) :
    val_main_v70 (F := Ideal) x1 (ix2 b q) = wrapW (IntOp.addi (cellW (x1 (ix3 b q 0))) 1#32) := by
  rw [val_main_v70_apply, val_main_v67_apply, val_main_v69_apply, v63_at,
    val_main_v66_apply, val_main_c_22_apply, val_main_v68_apply, val_main_c_23_apply]

/-- The column cell word plus one. -/
theorem v65_at (x1 : S8x65536x2.Idx → EReal) (b : Fin 8) (q : Fin 65536) :
    val_main_v65 (F := Ideal) x1 (ix2 b q) = IntOp.addi (cellW (x1 (ix3 b q 1))) 1#32 := by
  rw [val_main_v65_apply, v15_at, val_main_v64_apply, val_main_c_21_apply]

/-- The wrapped column word of the corner `(1, 1)`. -/
theorem v75_at (x1 : S8x65536x2.Idx → EReal) (b : Fin 8) (q : Fin 65536) :
    val_main_v75 (F := Ideal) x1 (ix2 b q) = wrapW (IntOp.addi (cellW (x1 (ix3 b q 1))) 1#32) := by
  rw [val_main_v75_apply, val_main_v72_apply, val_main_v74_apply, v65_at,
    val_main_v71_apply, val_main_c_24_apply, val_main_v73_apply, val_main_c_25_apply]

/-! ## The start-index arrays -/

/-- An index `(b, q, 0)` of `[8, 65536, 1]` read back through the broadcast along the last axis is `(b, q)`. -/
theorem idx_bcast1 (b : Fin 8) (q : Fin 65536) :
    (fun a => match a with
      | ⟨0, _⟩ => ⟨((ix3 b q (0 : Fin 1)) 0).val, ((ix3 b q (0 : Fin 1)) 0).isLt⟩
      | ⟨1, _⟩ => ⟨((ix3 b q (0 : Fin 1)) 1).val, ((ix3 b q (0 : Fin 1)) 1).isLt⟩ : S8x65536.Idx) = ix2 b q := by
  funext a
  match a with
  | ⟨0, _⟩ => rfl
  | ⟨1, _⟩ => rfl

/-- The row word of the corner `(0, 0)` as an array `[8, 65536, 1]`. -/
theorem v26_at (x1 : S8x65536x2.Idx → EReal) (b : Fin 8) (q : Fin 65536) :
    val_main_v26 (F := Ideal) x1 (ix3 b q 0) = wrapW (cellW (x1 (ix3 b q 0))) := by
  rw [val_main_v26_apply, show idx_main_v26 (ix3 b q 0) = ix2 b q from idx_bcast1 b q, v20_at]

/-- The column word of the corner `(0, 0)` as an array `[8, 65536, 1]`. -/
theorem v27_at (x1 : S8x65536x2.Idx → EReal) (b : Fin 8) (q : Fin 65536) :
    val_main_v27 (F := Ideal) x1 (ix3 b q 0) = wrapW (cellW (x1 (ix3 b q 1))) := by
  rw [val_main_v27_apply, show idx_main_v27 (ix3 b q 0) = ix2 b q from idx_bcast1 b q, v25_at]

/-- Component 0 of the start index of the corner `(0, 0)`: its row word. -/
theorem v28_at0 (x1 : S8x65536x2.Idx → EReal) (b : Fin 8) (q : Fin 65536) :
    val_main_v28 (F := Ideal) x1 (ix3 b q 0) = wrapW (cellW (x1 (ix3 b q 0))) := by
  unfold val_main_v28
  rw [concat_pair_at0, v26_at]

/-- Component 1 of the start index of the corner `(0, 0)`: its column word. -/
theorem v28_at1 (x1 : S8x65536x2.Idx → EReal) (b : Fin 8) (q : Fin 65536) :
    val_main_v28 (F := Ideal) x1 (ix3 b q 1) = wrapW (cellW (x1 (ix3 b q 1))) := by
  unfold val_main_v28
  rw [concat_pair_at1, v27_at]

/-- The row word of the corner `(0, 1)` as an array `[8, 65536, 1]`. -/
theorem v42_at (x1 : S8x65536x2.Idx → EReal) (b : Fin 8) (q : Fin 65536) :
    val_main_v42 (F := Ideal) x1 (ix3 b q 0) = wrapW (cellW (x1 (ix3 b q 0))) := by
  rw [val_main_v42_apply, show idx_main_v42 (ix3 b q 0) = ix2 b q from idx_bcast1 b q, v36_at]

/-- The column word of the corner `(0, 1)` as an array `[8, 65536, 1]`. -/
theorem v43_at (x1 : S8x65536x2.Idx → EReal) (b : Fin 8) (q : Fin 65536) :
    val_main_v43 (F := Ideal) x1 (ix3 b q 0) = wrapW (IntOp.addi (cellW (x1 (ix3 b q 1))) 1#32) := by
  rw [val_main_v43_apply, show idx_main_v43 (ix3 b q 0) = ix2 b q from idx_bcast1 b q, v41_at]

/-- Component 0 of the start index of the corner `(0, 1)`: its row word. -/
theorem v44_at0 (x1 : S8x65536x2.Idx → EReal) (b : Fin 8) (q : Fin 65536) :
    val_main_v44 (F := Ideal) x1 (ix3 b q 0) = wrapW (cellW (x1 (ix3 b q 0))) := by
  unfold val_main_v44
  rw [concat_pair_at0, v42_at]

/-- Component 1 of the start index of the corner `(0, 1)`: its column word. -/
theorem v44_at1 (x1 : S8x65536x2.Idx → EReal) (b : Fin 8) (q : Fin 65536) :
    val_main_v44 (F := Ideal) x1 (ix3 b q 1) = wrapW (IntOp.addi (cellW (x1 (ix3 b q 1))) 1#32) := by
  unfold val_main_v44
  rw [concat_pair_at1, v43_at]

/-- The row word of the corner `(1, 0)` as an array `[8, 65536, 1]`. -/
theorem v58_at (x1 : S8x65536x2.Idx → EReal) (b : Fin 8) (q : Fin 65536) :
    val_main_v58 (F := Ideal) x1 (ix3 b q 0) = wrapW (IntOp.addi (cellW (x1 (ix3 b q 0))) 1#32) := by
  rw [val_main_v58_apply, show idx_main_v58 (ix3 b q 0) = ix2 b q from idx_bcast1 b q, v52_at]

/-- The column word of the corner `(1, 0)` as an array `[8, 65536, 1]`. -/
theorem v59_at (x1 : S8x65536x2.Idx → EReal) (b : Fin 8) (q : Fin 65536) :
    val_main_v59 (F := Ideal) x1 (ix3 b q 0) = wrapW (cellW (x1 (ix3 b q 1))) := by
  rw [val_main_v59_apply, show idx_main_v59 (ix3 b q 0) = ix2 b q from idx_bcast1 b q, v57_at]

/-- Component 0 of the start index of the corner `(1, 0)`: its row word. -/
theorem v60_at0 (x1 : S8x65536x2.Idx → EReal) (b : Fin 8) (q : Fin 65536) :
    val_main_v60 (F := Ideal) x1 (ix3 b q 0) = wrapW (IntOp.addi (cellW (x1 (ix3 b q 0))) 1#32) := by
  unfold val_main_v60
  rw [concat_pair_at0, v58_at]

/-- Component 1 of the start index of the corner `(1, 0)`: its column word. -/
theorem v60_at1 (x1 : S8x65536x2.Idx → EReal) (b : Fin 8) (q : Fin 65536) :
    val_main_v60 (F := Ideal) x1 (ix3 b q 1) = wrapW (cellW (x1 (ix3 b q 1))) := by
  unfold val_main_v60
  rw [concat_pair_at1, v59_at]

/-- The row word of the corner `(1, 1)` as an array `[8, 65536, 1]`. -/
theorem v76_at (x1 : S8x65536x2.Idx → EReal) (b : Fin 8) (q : Fin 65536) :
    val_main_v76 (F := Ideal) x1 (ix3 b q 0) = wrapW (IntOp.addi (cellW (x1 (ix3 b q 0))) 1#32) := by
  rw [val_main_v76_apply, show idx_main_v76 (ix3 b q 0) = ix2 b q from idx_bcast1 b q, v70_at]

/-- The column word of the corner `(1, 1)` as an array `[8, 65536, 1]`. -/
theorem v77_at (x1 : S8x65536x2.Idx → EReal) (b : Fin 8) (q : Fin 65536) :
    val_main_v77 (F := Ideal) x1 (ix3 b q 0) = wrapW (IntOp.addi (cellW (x1 (ix3 b q 1))) 1#32) := by
  rw [val_main_v77_apply, show idx_main_v77 (ix3 b q 0) = ix2 b q from idx_bcast1 b q, v75_at]

/-- Component 0 of the start index of the corner `(1, 1)`: its row word. -/
theorem v78_at0 (x1 : S8x65536x2.Idx → EReal) (b : Fin 8) (q : Fin 65536) :
    val_main_v78 (F := Ideal) x1 (ix3 b q 0) = wrapW (IntOp.addi (cellW (x1 (ix3 b q 0))) 1#32) := by
  unfold val_main_v78
  rw [concat_pair_at0, v76_at]

/-- Component 1 of the start index of the corner `(1, 1)`: its column word. -/
theorem v78_at1 (x1 : S8x65536x2.Idx → EReal) (b : Fin 8) (q : Fin 65536) :
    val_main_v78 (F := Ideal) x1 (ix3 b q 1) = wrapW (IntOp.addi (cellW (x1 (ix3 b q 1))) 1#32) := by
  unfold val_main_v78
  rw [concat_pair_at1, v77_at]

/-! ## The four gathers -/

/-- The program's gather read at `(b, q, ch)`: the grid at `(b, k₀, k₁, ch)`, the two start-index words read signed and
    clamped into `[0, 255]`. -/
theorem gather_at (x0 : S8x256x256x64.Idx → EReal) (idx : IVec S8x65536x2 32) (b : Fin 8) (q : Fin 65536) (ch : Fin 64) :
    Host.gather gather_S8x256x256x64_S8x65536x2_S8x65536x64_2_12_0_0_12_2_11164 x0 idx (ix3 b q ch)
      = x0 (ix4 b ⟨min (idx (ix3 b q 0)).toInt.toNat 255, by omega⟩
            ⟨min (idx (ix3 b q 1)).toInt.toNat 255, by omega⟩ ch) :=
  gather_cell_apply gather_S8x256x256x64_S8x65536x2_S8x65536x64_2_12_0_0_12_2_11164_wf x0 idx b q ch

/-- A cell word is unchanged by the wrap and the clamp. -/
theorem wrap0 (e : EReal) : min (wrapW (cellW e)).toInt.toNat 255 = min ((cellW e).toNat + 0) 255 := by
  have h := cellW_le e
  rw [wrapW, wrapClamp _ _ 255 (by omega) (by norm_num)]
  omega

/-- A cell word plus one is unchanged by the wrap and the clamp. -/
theorem wrap1 (e : EReal) :
    min (wrapW (IntOp.addi (cellW e) 1#32)).toInt.toNat 255 = min ((cellW e).toNat + 1) 255 := by
  have h := cellW_le e
  have h1 : (IntOp.addi (cellW e) 1#32).toNat = (cellW e).toNat + 1 := by
    rw [toNat_addi _ _ (by rw [BitVec.toNat_ofNat]; omega), BitVec.toNat_ofNat]
  rw [wrapW, wrapClamp _ _ 255 (by omega) (by norm_num), h1]
  omega

/-- A grid element addressed by two clamped words that name the corner `(dy, dx)` of the cell of `(y, x)`. -/
theorem corner_of_words (x0 : S8x256x256x64.Idx → EReal) (b : Fin 8) (y x : EReal) (dy dx : ℕ) (ch : Fin 64) (wy wx : BitVec 32)
    (hy : min wy.toInt.toNat 255 = min ((cellW y).toNat + dy) 255)
    (hx : min wx.toInt.toNat 255 = min ((cellW x).toNat + dx) 255) :
    x0 (ix4 b ⟨min wy.toInt.toNat 255, by omega⟩ ⟨min wx.toInt.toNat 255, by omega⟩ ch)
      = corner x0 b y x dy dx ch := by
  unfold corner
  congr 1
  funext a
  match a with
  | ⟨0, _⟩ => rfl
  | ⟨1, _⟩ => exact Fin.ext hy
  | ⟨2, _⟩ => exact Fin.ext hx
  | ⟨3, _⟩ => rfl

/-- The first gather reads the corner `(0, 0)` of the query's cell. -/
theorem v29_at (x0 : S8x256x256x64.Idx → EReal) (x1 : S8x65536x2.Idx → EReal) (b : Fin 8) (q : Fin 65536) (ch : Fin 64) :
    val_main_v29 (F := Ideal) x0 x1 (ix3 b q ch)
      = corner x0 b (x1 (ix3 b q 0)) (x1 (ix3 b q 1)) 0 0 ch := by
  unfold val_main_v29
  rw [gather_at]
  exact corner_of_words x0 b _ _ 0 0 ch _ _
    (by rw [v28_at0]; exact wrap0 _) (by rw [v28_at1]; exact wrap0 _)

/-- The second gather reads the corner `(0, 1)`. -/
theorem v45_at (x0 : S8x256x256x64.Idx → EReal) (x1 : S8x65536x2.Idx → EReal) (b : Fin 8) (q : Fin 65536) (ch : Fin 64) :
    val_main_v45 (F := Ideal) x0 x1 (ix3 b q ch)
      = corner x0 b (x1 (ix3 b q 0)) (x1 (ix3 b q 1)) 0 1 ch := by
  unfold val_main_v45
  rw [gather_at]
  exact corner_of_words x0 b _ _ 0 1 ch _ _
    (by rw [v44_at0]; exact wrap0 _) (by rw [v44_at1]; exact wrap1 _)

/-- The third gather reads the corner `(1, 0)`. -/
theorem v61_at (x0 : S8x256x256x64.Idx → EReal) (x1 : S8x65536x2.Idx → EReal) (b : Fin 8) (q : Fin 65536) (ch : Fin 64) :
    val_main_v61 (F := Ideal) x0 x1 (ix3 b q ch)
      = corner x0 b (x1 (ix3 b q 0)) (x1 (ix3 b q 1)) 1 0 ch := by
  unfold val_main_v61
  rw [gather_at]
  exact corner_of_words x0 b _ _ 1 0 ch _ _
    (by rw [v60_at0]; exact wrap1 _) (by rw [v60_at1]; exact wrap0 _)

/-- The fourth gather reads the corner `(1, 1)`. -/
theorem v79_at (x0 : S8x256x256x64.Idx → EReal) (x1 : S8x65536x2.Idx → EReal) (b : Fin 8) (q : Fin 65536) (ch : Fin 64) :
    val_main_v79 (F := Ideal) x0 x1 (ix3 b q ch)
      = corner x0 b (x1 (ix3 b q 0)) (x1 (ix3 b q 1)) 1 1 ch := by
  unfold val_main_v79
  rw [gather_at]
  exact corner_of_words x0 b _ _ 1 1 ch _ _
    (by rw [v78_at0]; exact wrap1 _) (by rw [v78_at1]; exact wrap1 _)

/-! ## The interpolation -/

/-- An index `(b, q, ch)` of the result read back through the broadcast along the channel axis and then through the
    broadcast along the unit axis is `(b, q)`. -/
theorem idx_bcast2 (b : Fin 8) (q : Fin 65536) (ch : Fin 64) :
    (fun a => match a with
      | ⟨0, _⟩ => ⟨((fun a => match a with
          | ⟨0, _⟩ => ⟨((ix3 b q ch) 0).val, ((ix3 b q ch) 0).isLt⟩
          | ⟨1, _⟩ => ⟨((ix3 b q ch) 1).val, ((ix3 b q ch) 1).isLt⟩
          | ⟨2, _⟩ => ⟨0, Nat.one_pos⟩ : S8x65536x1.Idx) 0).val, Fin.isLt _⟩
      | ⟨1, _⟩ => ⟨((fun a => match a with
          | ⟨0, _⟩ => ⟨((ix3 b q ch) 0).val, ((ix3 b q ch) 0).isLt⟩
          | ⟨1, _⟩ => ⟨((ix3 b q ch) 1).val, ((ix3 b q ch) 1).isLt⟩
          | ⟨2, _⟩ => ⟨0, Nat.one_pos⟩ : S8x65536x1.Idx) 1).val, Fin.isLt _⟩ : S8x65536.Idx) = ix2 b q := by
  funext a
  match a with
  | ⟨0, _⟩ => rfl
  | ⟨1, _⟩ => rfl

/-- The column weight broadcast along the channel axis. -/
theorem v13_at (x1 : S8x65536x2.Idx → EReal) (b : Fin 8) (q : Fin 65536) (ch : Fin 64) :
    val_main_v13 (F := Ideal) x1 (idx_main_v81 (ix3 b q ch)) = frac (x1 (ix3 b q 1)) := by
  rw [val_main_v13_apply, show idx_main_v13 (idx_main_v81 (ix3 b q ch)) = ix2 b q from idx_bcast2 b q ch, v12_at]

/-- The row weight broadcast along the channel axis. -/
theorem v10_at (x1 : S8x65536x2.Idx → EReal) (b : Fin 8) (q : Fin 65536) (ch : Fin 64) :
    val_main_v10 (F := Ideal) x1 (idx_main_v89 (ix3 b q ch)) = frac (x1 (ix3 b q 0)) := by
  rw [val_main_v10_apply, show idx_main_v10 (idx_main_v89 (ix3 b q ch)) = ix2 b q from idx_bcast2 b q ch, v9_at]

/-- The reference program's result at `(b, q, ch)` is the bilinear sample. -/
theorem v91_at (x0 : S8x256x256x64.Idx → EReal) (x1 : S8x65536x2.Idx → EReal) (b : Fin 8) (q : Fin 65536) (ch : Fin 64) :
    val_main_v91 (F := Ideal) x0 x1 (ix3 b q ch) = sample x0 x1 b q ch := by
  simp only [val_main_v91_apply, val_main_v90_apply, val_main_v89_apply, val_main_v88_apply, val_main_v87_apply,
    val_main_v86_apply, val_main_v85_apply, val_main_v84_apply, val_main_v83_apply, val_main_v82_apply,
    val_main_v81_apply, val_main_v80_apply]
  rw [show idx_main_v85 (ix3 b q ch) = idx_main_v81 (ix3 b q ch) from rfl, v13_at, v10_at,
    v29_at, v45_at, v61_at, v79_at]
  rfl

/-- THE REFERENCE PROGRAM'S VALUE: its result array is the bilinear sampling of the grid at the query points. -/
theorem result_eq (x0 : S8x256x256x64.Idx → EReal) (x1 : S8x65536x2.Idx → EReal) :
    Cert.ReferenceIdeal.Read.val_main_v91 (F := Ideal) x0 x1 = Cert.Blend.bilinear x0 x1 := by
  funext i
  obtain ⟨b, q, ch, rfl⟩ : ∃ b q ch, i = ix3 b q ch := ⟨i 0, i 1, i 2, eq_ix3 i⟩
  exact v91_at x0 x1 b q ch

end Cert.ReferenceIdeal.RefValue

end
-- ==== Proof.lean ====
/-
  Bilinear sampling of a grid `[8, 256, 256, 64]` at `[8, 65536, 2]` query points: the kernel program against the reference,
  over the extended reals.

  Both programs floor each query coordinate, clamp it to `[0, 254]` and convert it to an integer word, and weight the four
  corners of the cell by the clamped fractional parts, the column coordinate first (`Cert.Blend.bilinear`, Proof/Spec.lean).
  They differ in how the corners are fetched. The reference gathers each corner from the grid at the pair of words
  `(y + dy, x + dx)`. The kernel program reshapes the grid to `[8, 65536, 64]`, gathers PAIRS of adjacent rows at the flat
  words `y * 256 + x` (top) and `y * 256 + x + 256` (bottom), and blends in a kernel over 128 blocks of 4096 queries, the left
  corner in lanes `0 … 63` and the right corner in lanes `64 … 127` of a pair. Since `y, x ≤ 254`, every word is
  non-negative and in range, so neither the negative-index wrap nor the gather's clamp changes it, and
  `(y * 256 + x + 256 dy + dx) / 256 = y + dy`, `… % 256 = x + dx`: the same grid element. The blend is the same expression on
  both sides, so no law of the extended reals is needed and the inputs' finiteness is not used.
  Generated: the three frames' runs (`Gen.frame`, `Gen.run_main`), the reference's run and its read-at-an-index lemmas.
-/
import proofs.«106698_j20942260535437_2_alg».proof.Defs
import proofs.«106698_j20942260535437_2_alg».proof.Proof.Gen.Kernel
import proofs.«106698_j20942260535437_2_alg».proof.Proof.Gen.Kernel.Skeleton
import proofs.«106698_j20942260535437_2_alg».proof.Proof.Gen.Kernel.Launch
import proofs.«106698_j20942260535437_2_alg».proof.Proof.Gen.Kernel.Points
import proofs.«106698_j20942260535437_2_alg».proof.Proof.Gen.Kernel.Frame
import proofs.«106698_j20942260535437_2_alg».proof.Proof.Gen.KernelIdeal
import proofs.«106698_j20942260535437_2_alg».proof.Proof.Gen.KernelIdeal.Skeleton
import proofs.«106698_j20942260535437_2_alg».proof.Proof.Gen.KernelIdeal.Launch
import proofs.«106698_j20942260535437_2_alg».proof.Proof.Gen.KernelIdeal.Points
import proofs.«106698_j20942260535437_2_alg».proof.Proof.Gen.KernelIdeal.Frame
import proofs.«106698_j20942260535437_2_alg».proof.Proof.Gen.ReferenceIdeal
import proofs.«106698_j20942260535437_2_alg».proof.Proof.Gen.Pre_finite_inputs
import proofs.«106698_j20942260535437_2_alg».proof.Proof.Gen.ReferenceIdeal.Run
import proofs.«106698_j20942260535437_2_alg».proof.Proof.Gen.ReferenceIdeal.Read
import proofs.«106698_j20942260535437_2_alg».proof.Proof.KernelValue
import proofs.«106698_j20942260535437_2_alg».proof.Proof.RefValue
import Idealize.ShloMosaic.Adequacy
import Idealize.ShloMosaic.Init

noncomputable section

namespace Cert.Proof

open Idealize.ShloMosaic Idealize.SL.Sem Cert.Blend

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the sampled array `bilinear` of the arguments in their
    result buffers. -/
theorem algebraic : Cert.algebraic_KernelIdeal_ReferenceIdeal := by
  intro m ρ m' ρ' _ hagree
  refine ⟨fun c => bilinear (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Rows.run_bilinear m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
